-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768x768 : Shape := ⟨2, ![32768, 768]⟩
abbrev S32768x256 : Shape := ⟨2, ![32768, 256]⟩
abbrev S32768x128 : Shape := ⟨2, ![32768, 128]⟩
abbrev S32768x3 : Shape := ⟨2, ![32768, 3]⟩
abbrev S1920x512 : Shape := ⟨2, ![1920, 512]⟩
abbrev S512 : Shape := ⟨1, ![512]⟩
abbrev S512x512 : Shape := ⟨2, ![512, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x768 : S_.BroadcastsInDim S32768x768 (![] : Fin 0 → Fin S32768x768.rank)
  reducesTo_S32768x768_S_d0_1 : S32768x768.ReducesTo [0, 1] S_
  bcast_S_S32768x256 : S_.BroadcastsInDim S32768x256 (![] : Fin 0 → Fin S32768x256.rank)
  reducesTo_S32768x256_S_d0_1 : S32768x256.ReducesTo [0, 1] S_
  bcast_S_S32768x128 : S_.BroadcastsInDim S32768x128 (![] : Fin 0 → Fin S32768x128.rank)
  reducesTo_S32768x128_S_d0_1 : S32768x128.ReducesTo [0, 1] S_
  bcast_S_S1920x512 : S_.BroadcastsInDim S1920x512 (![] : Fin 0 → Fin S1920x512.rank)
  reducesTo_S1920x512_S_d0_1 : S1920x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part5 {F : FTy → Type} [FloatOps F] (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  main_v88

def fn_part4 {F : FTy → Type} [FloatOps F] (main_arg15 : FVec F S512x512 .f32) (main_arg16 : FVec F S512 .f32) (main_arg17 : FVec F S512x512 .f32) (main_arg18 : FVec F S512 .f32) (main_v63 : IVec S_ 1) (main_v67 : IVec S_ 1) : IVec S_ 1 :=
  let main_v68 : IVec S_ 1 := andi main_v63 main_v67
  let main_v69 : FVec F S512x512 .f32 := Host.absf main_arg15
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512 .f32 := Host.absf main_arg16
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x512 .f32 := Host.absf main_arg17
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  let main_v84 : FVec F S512 .f32 := Host.absf main_arg18
  let main_cst_32 : FVec F S_ .f32 := constant S_ .f32 0x7F800000#32
  fn_part5 (F := F) main_v83 main_v84 main_cst_32

def fn_part3 {F : FTy → Type} [FloatOps F] (main_arg12 : FVec F S512 .f32) (main_arg13 : FVec F S1920x512 .f32) (main_arg14 : FVec F S512 .f32) (main_arg15 : FVec F S512x512 .f32) (main_arg16 : FVec F S512 .f32) (main_arg17 : FVec F S512x512 .f32) (main_arg18 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S1920x512 .f32 := Host.absf main_arg13
  let main_cst_22 : FVec F S_ .f32 := constant S_ .f32 0x7F800000#32
  let main_v60 : FVec F S1920x512 .f32 := broadcastInDim S1920x512 ![] bcast_S_S1920x512 main_cst_22
  let main_v61 : IVec S1920x512 1 := cmpf .olt main_v59 main_v60
  let main_c_23 : IVec S_ 1 := constantI S_ 1 1#1
  let main_v62 : IVec S_ 1 := (fun x v => Host.reduce IntOp.andi x v reducesTo_S1920x512_S_d0_1 h_S_) main_v61 main_c_23
  let main_v63 : IVec S_ 1 := andi main_v58 main_v62
  let main_v64 : FVec F S512 .f32 := Host.absf main_arg14
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg15 main_arg16 main_arg17 main_arg18 main_v63 main_v67

def fn_part2 {F : FTy → Type} [FloatOps F] (main_arg8 : FVec F S512 .f32) (main_arg9 : FVec F S512x512 .f32) (main_arg10 : FVec F S512 .f32) (main_arg11 : FVec F S512x512 .f32) (main_arg12 : FVec F S512 .f32) (main_arg13 : FVec F S1920x512 .f32) (main_arg14 : FVec F S512 .f32) (main_arg15 : FVec F S512x512 .f32) (main_arg16 : FVec F S512 .f32) (main_arg17 : FVec F S512x512 .f32) (main_arg18 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg11
  let main_cst_18 : FVec F S_ .f32 := constant S_ .f32 0x7F800000#32
  let main_v50 : FVec F S512x512 .f32 := broadcastInDim S512x512 ![] bcast_S_S512x512 main_cst_18
  fn_part3 (F := F) main_arg12 main_arg13 main_arg14 main_arg15 main_arg16 main_arg17 main_arg18 main_v48 main_v49 main_v50

def fn_part1 {F : FTy → Type} [FloatOps F] (main_arg4 : FVec F S32768x256 .f32) (main_arg5 : FVec F S32768x128 .f32) (main_arg7 : FVec F S1920x512 .f32) (main_arg8 : FVec F S512 .f32) (main_arg9 : FVec F S512x512 .f32) (main_arg10 : FVec F S512 .f32) (main_arg11 : FVec F S512x512 .f32) (main_arg12 : FVec F S512 .f32) (main_arg13 : FVec F S1920x512 .f32) (main_arg14 : FVec F S512 .f32) (main_arg15 : FVec F S512x512 .f32) (main_arg16 : FVec F S512 .f32) (main_arg17 : FVec F S512x512 .f32) (main_arg18 : FVec F S512 .f32) (main_v13 : IVec S_ 1) (main_v16 : IVec S32768x256 1) : IVec S_ 1 :=
  let main_c_5 : IVec S_ 1 := constantI S_ 1 1#1
  let main_v17 : IVec S_ 1 := (fun x v => Host.reduce IntOp.andi x v reducesTo_S32768x256_S_d0_1 h_S_) main_v16 main_c_5
  let main_v18 : IVec S_ 1 := andi main_v13 main_v17
  let main_v19 : FVec F S32768x256 .f32 := Host.absf main_arg4
  let main_cst_6 : FVec F S_ .f32 := constant S_ .f32 0x7F800000#32
  let main_v20 : FVec F S32768x256 .f32 := broadcastInDim S32768x256 ![] bcast_S_S32768x256 main_cst_6
  let main_v21 : IVec S32768x256 1 := cmpf .olt main_v19 main_v20
  let main_c_7 : IVec S_ 1 := constantI S_ 1 1#1
  let main_v22 : IVec S_ 1 := (fun x v => Host.reduce IntOp.andi x v reducesTo_S32768x256_S_d0_1 h_S_) main_v21 main_c_7
  let main_v23 : IVec S_ 1 := andi main_v18 main_v22
  let main_v24 : FVec F S32768x128 .f32 := Host.absf main_arg5
  let main_cst_8 : FVec F S_ .f32 := constant S_ .f32 0x7F800000#32
  let main_v25 : FVec F S32768x128 .f32 := broadcastInDim S32768x128 ![] bcast_S_S32768x128 main_cst_8
  let main_v26 : IVec S32768x128 1 := cmpf .olt main_v24 main_v25
  let main_c_9 : IVec S_ 1 := constantI S_ 1 1#1
  let main_v27 : IVec S_ 1 := (fun x v => Host.reduce IntOp.andi x v reducesTo_S32768x128_S_d0_1 h_S_) main_v26 main_c_9
  let main_v28 : IVec S_ 1 := andi main_v23 main_v27
  let main_v29 : FVec F S1920x512 .f32 := Host.absf main_arg7
  let main_cst_10 : FVec F S_ .f32 := constant S_ .f32 0x7F800000#32
  let main_v30 : FVec F S1920x512 .f32 := broadcastInDim S1920x512 ![] bcast_S_S1920x512 main_cst_10
  let main_v31 : IVec S1920x512 1 := cmpf .olt main_v29 main_v30
  let main_c_11 : IVec S_ 1 := constantI S_ 1 1#1
  let main_v32 : IVec S_ 1 := (fun x v => Host.reduce IntOp.andi x v reducesTo_S1920x512_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S32768x512 .f32) (main_arg1 : FVec F S32768x512 .f32) (main_arg2 : FVec F S32768x768 .f32) (main_arg3 : FVec F S32768x256 .f32) (main_arg4 : FVec F S32768x256 .f32) (main_arg5 : FVec F S32768x128 .f32) (main_arg6 : IVec S32768x3 32) (main_arg7 : FVec F S1920x512 .f32) (main_arg8 : FVec F S512 .f32) (main_arg9 : FVec F S512x512 .f32) (main_arg10 : FVec F S512 .f32) (main_arg11 : FVec F S512x512 .f32) (main_arg12 : FVec F S512 .f32) (main_arg13 : FVec F S1920x512 .f32) (main_arg14 : FVec F S512 .f32) (main_arg15 : FVec F S512x512 .f32) (main_arg16 : FVec F S512 .f32) (main_arg17 : FVec F S512x512 .f32) (main_arg18 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x768 .f32 := Host.absf main_arg2
  let main_cst_2 : FVec F S_ .f32 := constant S_ .f32 0x7F800000#32
  let main_v10 : FVec F S32768x768 .f32 := broadcastInDim S32768x768 ![] bcast_S_S32768x768 main_cst_2
  let main_v11 : IVec S32768x768 1 := cmpf .olt main_v9 main_v10
  let main_c_3 : IVec S_ 1 := constantI S_ 1 1#1
  let main_v12 : IVec S_ 1 := (fun x v => Host.reduce IntOp.andi x v reducesTo_S32768x768_S_d0_1 h_S_) main_v11 main_c_3
  let main_v13 : IVec S_ 1 := andi main_v8 main_v12
  let main_v14 : FVec F S32768x256 .f32 := Host.absf main_arg3
  let main_cst_4 : FVec F S_ .f32 := constant S_ .f32 0x7F800000#32
  let main_v15 : FVec F S32768x256 .f32 := broadcastInDim S32768x256 ![] bcast_S_S32768x256 main_cst_4
  let main_v16 : IVec S32768x256 1 := cmpf .olt main_v14 main_v15
  fn_part1 (F := F) main_arg4 main_arg5 main_arg7 main_arg8 main_arg9 main_arg10 main_arg11 main_arg12 main_arg13 main_arg14 main_arg15 main_arg16 main_arg17 main_arg18 main_v13 main_v16
-- ==== Kernel.lean ====
abbrev S32768x512 : Shape := ⟨2, ![32768, 512]⟩
abbrev S32768x768 : Shape := ⟨2, ![32768, 768]⟩
abbrev S32768x256 : Shape := ⟨2, ![32768, 256]⟩
abbrev S32768x128 : Shape := ⟨2, ![32768, 128]⟩
abbrev S32768x3 : Shape := ⟨2, ![32768, 3]⟩
abbrev S1920x512 : Shape := ⟨2, ![1920, 512]⟩
abbrev S512 : Shape := ⟨1, ![512]⟩
abbrev S512x512 : Shape := ⟨2, ![512, 512]⟩
abbrev S512x768 : Shape := ⟨2, ![512, 768]⟩
abbrev S512x256 : Shape := ⟨2, ![512, 256]⟩
abbrev S512x128 : Shape := ⟨2, ![512, 128]⟩
abbrev S512x3 : Shape := ⟨2, ![512, 3]⟩
abbrev S768x512 : Shape := ⟨2, ![768, 512]⟩
abbrev S256x512 : Shape := ⟨2, ![256, 512]⟩
abbrev S128x512 : Shape := ⟨2, ![128, 512]⟩
abbrev S1x512 : Shape := ⟨2, ![1, 512]⟩
abbrev S512x1 : Shape := ⟨2, ![512, 1]⟩

abbrev nBuf : Space → Nat
  | .hbm => 27
  | .vmem => 30
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x768, .f32⟩
  | .hbm, ⟨3, _⟩ => ⟨S32768x256, .f32⟩
  | .hbm, ⟨4, _⟩ => ⟨S32768x256, .f32⟩
  | .hbm, ⟨5, _⟩ => ⟨S32768x128, .f32⟩
  | .hbm, ⟨6, _⟩ => ⟨S32768x3, .i32⟩
  | .hbm, ⟨7, _⟩ => ⟨S1920x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S1920x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S1920x512, .bf16⟩
  | .hbm, ⟨20, _⟩ => ⟨S512x512, .bf16⟩
  | .hbm, ⟨21, _⟩ => ⟨S512x512, .bf16⟩
  | .hbm, ⟨22, _⟩ => ⟨S1920x512, .bf16⟩
  | .hbm, ⟨23, _⟩ => ⟨S512x512, .bf16⟩
  | .hbm, ⟨24, _⟩ => ⟨S512x512, .bf16⟩
  | .hbm, ⟨25, _⟩ => ⟨S32768x512, .f32⟩
  | .hbm, ⟨26, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x768, .f32⟩
  | .local _ .vmem, ⟨5, _⟩ => ⟨S512x768, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x128, .f32⟩
  | .local _ .vmem, ⟨11, _⟩ => ⟨S512x128, .f32⟩
  | .local _ .vmem, ⟨12, _⟩ => ⟨S512x3, .i32⟩
  | .local _ .vmem, ⟨13, _⟩ => ⟨S512x3, .i32⟩
  | .local _ .vmem, ⟨14, _⟩ => ⟨S1920x512, .bf16⟩
  | .local _ .vmem, ⟨15, _⟩ => ⟨S512, .f32⟩
  | .local _ .vmem, ⟨16, _⟩ => ⟨S512x512, .bf16⟩
  | .local _ .vmem, ⟨17, _⟩ => ⟨S512, .f32⟩
  | .local _ .vmem, ⟨18, _⟩ => ⟨S512x512, .bf16⟩
  | .local _ .vmem, ⟨19, _⟩ => ⟨S512, .f32⟩
  | .local _ .vmem, ⟨20, _⟩ => ⟨S1920x512, .bf16⟩
  | .local _ .vmem, ⟨21, _⟩ => ⟨S512, .f32⟩
  | .local _ .vmem, ⟨22, _⟩ => ⟨S512x512, .bf16⟩
  | .local _ .vmem, ⟨23, _⟩ => ⟨S512, .f32⟩
  | .local _ .vmem, ⟨24, _⟩ => ⟨S512x512, .bf16⟩
  | .local _ .vmem, ⟨25, _⟩ => ⟨S512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6_0 : Ref sig .tc := ⟨.hbm, 25, rfl⟩
abbrev main_v6_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem19_1 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1920x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1920x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512x768_S512x768_0_0 : ∀ a, (![0, 0] : Fin 2 → Nat) a + S512x768.size a ≤ S512x768.size a
  h_S512x768 : 0 < S512x768.numel
  inb_S512x256_S512x256_0_0 : ∀ a, (![0, 0] : Fin 2 → Nat) a + S512x256.size a ≤ S512x256.size a
  h_S512x256 : 0 < S512x256.numel
  inb_S512x128_S512x128_0_0 : ∀ a, (![0, 0] : Fin 2 → Nat) a + S512x128.size a ≤ S512x128.size a
  h_S512x128 : 0 < S512x128.numel
  inb_S1920x512_S512x512_0_0 : ∀ a, (![0, 0] : Fin 2 → Nat) a + S512x512.size a ≤ S1920x512.size a
  shapeCasts_S512x512_S512x512 : S512x512.ShapeCasts S512x512
  inb_S1920x512_S768x512_512_0 : ∀ a, (![512, 0] : Fin 2 → Nat) a + S768x512.size a ≤ S1920x512.size a
  h_S768x512 : 0 < S768x512.numel
  shapeCasts_S768x512_S768x512 : S768x512.ShapeCasts S768x512
  inb_S1920x512_S256x512_1280_0 : ∀ a, (![1280, 0] : Fin 2 → Nat) a + S256x512.size a ≤ S1920x512.size a
  h_S256x512 : 0 < S256x512.numel
  shapeCasts_S256x512_S256x512 : S256x512.ShapeCasts S256x512
  inb_S1920x512_S256x512_1536_0 : ∀ a, (![1536, 0] : Fin 2 → Nat) a + S256x512.size a ≤ S1920x512.size a
  inb_S1920x512_S128x512_1792_0 : ∀ a, (![1792, 0] : Fin 2 → Nat) a + S128x512.size a ≤ S1920x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x3_S512x3_0_0 : ∀ a, (![0, 0] : Fin 2 → Nat) a + S512x3.size a ≤ S512x3.size a
  h_S512x3 : 0 < S512x3.numel
  slices_S512x3_o0_0_S512x1 : S512x3.Slices ![0, 0] S512x1
  slices_S512x3_o0_1_S512x1 : S512x3.Slices ![0, 1] S512x1
  broadcasts_S512x1_S512x512 : S512x1.Broadcasts S512x512
  dot_S512x512_S512x512_S512x512_1_0_0_1_n_n_wf : DotDims.WF S512x512 S512x512 S512x512 [1] [0] [0] [1] [] []
  dot_S512x768_S768x512_S512x512_1_0_0_1_n_n_wf : DotDims.WF S512x768 S768x512 S512x512 [1] [0] [0] [1] [] []
  dot_S512x256_S256x512_S512x512_1_0_0_1_n_n_wf : DotDims.WF S512x256 S256x512 S512x512 [1] [0] [0] [1] [] []
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x768.size a ≤ S32768x768.size a
  hwx0_2 : ∀ i : grid0.Coords, EltTy.bits .f32 = 32 ∨ (Rect.block (s := S32768x768) S512x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S32768x256.size a
  hwx0_3 : ∀ i : grid0.Coords, EltTy.bits .f32 = 32 ∨ (Rect.block (s := S32768x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S32768x256.size a
  hwx0_4 : ∀ i : grid0.Coords, EltTy.bits .f32 = 32 ∨ (Rect.block (s := S32768x256) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S32768x128.size a
  hwx0_5 : ∀ i : grid0.Coords, EltTy.bits .f32 = 32 ∨ (Rect.block (s := S32768x128) S512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x3.size a ≤ S32768x3.size a
  hwx0_6 : ∀ i : grid0.Coords, EltTy.bits .i32 = 32 ∨ (Rect.block (s := S32768x3) S512x3.size (cc0_transform_6 i) (hinb0_6 i)).WholeWords (EltTy.packing .i32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1920x512.size a ≤ S1920x512.size a
  hwx0_7 : ∀ i : grid0.Coords, EltTy.bits .bf16 = 32 ∨ (Rect.block (s := S1920x512) S1920x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .bf16 = 32 ∨ (Rect.block (s := S512x512) S512x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1920x512.size a ≤ S1920x512.size a
  hwx0_13 : ∀ i : grid0.Coords, EltTy.bits .bf16 = 32 ∨ (Rect.block (s := S1920x512) S1920x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S512x512.size a
  hwx0_15 : ∀ i : grid0.Coords, EltTy.bits .bf16 = 32 ∨ (Rect.block (s := S512x512) S512x512.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512.size a ≤ S512.size a
  hwx0_16 : ∀ i : grid0.Coords, EltTy.bits .f32 = 32 ∨ (Rect.block (s := S512) S512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x512.size a ≤ S512x512.size a
  hwx0_17 : ∀ i : grid0.Coords, EltTy.bits .bf16 = 32 ∨ (Rect.block (s := S512x512) S512x512.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512.size a ≤ S512.size a
  hwx0_18 : ∀ i : grid0.Coords, EltTy.bits .f32 = 32 ∨ (Rect.block (s := S512) S512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x512.size a ≤ S32768x512.size a
  hwx0_19 : ∀ i : grid0.Coords, EltTy.bits .f32 = 32 ∨ (Rect.block (s := S32768x512) S512x512.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S512x512.size a ≤ S32768x512.size a
  hwx0_20 : ∀ i : grid0.Coords, EltTy.bits .f32 = 32 ∨ (Rect.block (s := S32768x512) S512x512.size (cc0_transform_20 i) (hinb0_20 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x3.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1920x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v3) S1920x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v4) S512x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v5) S512x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v6_0) S512x512.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v6_1) S512x512.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S32768x512 : Shape := ⟨2, ![32768, 512]⟩
abbrev S32768x768 : Shape := ⟨2, ![32768, 768]⟩
abbrev S32768x256 : Shape := ⟨2, ![32768, 256]⟩
abbrev S32768x128 : Shape := ⟨2, ![32768, 128]⟩
abbrev S32768x3 : Shape := ⟨2, ![32768, 3]⟩
abbrev S1920x512 : Shape := ⟨2, ![1920, 512]⟩
abbrev S512 : Shape := ⟨1, ![512]⟩
abbrev S512x512 : Shape := ⟨2, ![512, 512]⟩
abbrev S32768x640 : Shape := ⟨2, ![32768, 640]⟩
abbrev S32768x1920 : Shape := ⟨2, ![32768, 1920]⟩
abbrev S1x512 : Shape := ⟨2, ![1, 512]⟩
abbrev S_ : Shape := ⟨0, ![]⟩
abbrev S32768x1 : Shape := ⟨2, ![32768, 1]⟩

abbrev nBuf : Space → Nat
  | .hbm => 71
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x768, .f32⟩
  | .hbm, ⟨3, _⟩ => ⟨S32768x256, .f32⟩
  | .hbm, ⟨4, _⟩ => ⟨S32768x256, .f32⟩
  | .hbm, ⟨5, _⟩ => ⟨S32768x128, .f32⟩
  | .hbm, ⟨6, _⟩ => ⟨S32768x3, .i32⟩
  | .hbm, ⟨7, _⟩ => ⟨S1920x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S1920x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S32768x3, .f32⟩
  | .hbm, ⟨20, _⟩ => ⟨S32768x640, .f32⟩
  | .hbm, ⟨21, _⟩ => ⟨S32768x1920, .f32⟩
  | .hbm, ⟨22, _⟩ => ⟨S32768x1920, .f32⟩
  | .hbm, ⟨23, _⟩ => ⟨S32768x512, .f32⟩
  | .hbm, ⟨24, _⟩ => ⟨S1x512, .f32⟩
  | .hbm, ⟨25, _⟩ => ⟨S32768x512, .f32⟩
  | .hbm, ⟨26, _⟩ => ⟨S32768x512, .f32⟩
  | .hbm, ⟨27, _⟩ => ⟨S_, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S1x512, .f32⟩
  | .hbm, ⟨32, _⟩ => ⟨S32768x512, .f32⟩
  | .hbm, ⟨33, _⟩ => ⟨S32768x512, .f32⟩
  | .hbm, ⟨34, _⟩ => ⟨S_, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S1x512, .f32⟩
  | .hbm, ⟨39, _⟩ => ⟨S32768x512, .f32⟩
  | .hbm, ⟨40, _⟩ => ⟨S32768x512, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x512, .f32⟩
  | .hbm, ⟨46, _⟩ => ⟨S32768x512, .f32⟩
  | .hbm, ⟨47, _⟩ => ⟨S32768x512, .f32⟩
  | .hbm, ⟨48, _⟩ => ⟨S1x512, .f32⟩
  | .hbm, ⟨49, _⟩ => ⟨S32768x512, .f32⟩
  | .hbm, ⟨50, _⟩ => ⟨S32768x512, .f32⟩
  | .hbm, ⟨51, _⟩ => ⟨S_, .f32⟩
  | .hbm, ⟨52, _⟩ => ⟨S32768x512, .f32⟩
  | .hbm, ⟨53, _⟩ => ⟨S32768x512, .f32⟩
  | .hbm, ⟨54, _⟩ => ⟨S32768x512, .f32⟩
  | .hbm, ⟨55, _⟩ => ⟨S1x512, .f32⟩
  | .hbm, ⟨56, _⟩ => ⟨S32768x512, .f32⟩
  | .hbm, ⟨57, _⟩ => ⟨S32768x512, .f32⟩
  | .hbm, ⟨58, _⟩ => ⟨S_, .f32⟩
  | .hbm, ⟨59, _⟩ => ⟨S32768x512, .f32⟩
  | .hbm, ⟨60, _⟩ => ⟨S32768x512, .f32⟩
  | .hbm, ⟨61, _⟩ => ⟨S32768x512, .f32⟩
  | .hbm, ⟨62, _⟩ => ⟨S1x512, .f32⟩
  | .hbm, ⟨63, _⟩ => ⟨S32768x512, .f32⟩
  | .hbm, ⟨64, _⟩ => ⟨S32768x512, .f32⟩
  | .hbm, ⟨65, _⟩ => ⟨S32768x1, .f32⟩
  | .hbm, ⟨66, _⟩ => ⟨S_, .f32⟩
  | .hbm, ⟨67, _⟩ => ⟨S32768x1, .f32⟩
  | .hbm, ⟨68, _⟩ => ⟨S32768x1, .f32⟩
  | .hbm, ⟨69, _⟩ => ⟨S32768x512, .f32⟩
  | .hbm, ⟨70, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call0_cst : Ref sig .tc := ⟨.hbm, 27, rfl⟩
abbrev main_call0_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call1_cst : Ref sig .tc := ⟨.hbm, 34, rfl⟩
abbrev main_call1_v0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call2_cst : Ref sig .tc := ⟨.hbm, 51, rfl⟩
abbrev main_call2_v0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_call3_cst : Ref sig .tc := ⟨.hbm, 58, rfl⟩
abbrev main_call3_v0 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩

abbrev nD : Nat := 1
abbrev τ : Topo := Topo.v7x

variable {F : FTy → Type} [FloatOps F]

class Facts₀ : Prop where
  concatenates_S32768x256_S32768x256_S32768x128_S32768x640_d1 : Shape.Concatenates [S32768x256, S32768x256, S32768x128] S32768x640 1
  concatenates_S32768x512_S32768x768_S32768x640_S32768x1920_d1 : Shape.Concatenates [S32768x512, S32768x768, S32768x640] S32768x1920 1
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  slices_S32768x3_S32768x1_0_0 : S32768x3.Slices ![0, 0] S32768x1
  bcast_S_S32768x1 : S_.BroadcastsInDim S32768x1 (![] : Fin 0 → Fin S32768x1.rank)
  bcast_S32768x1_S32768x512_0_1 : S32768x1.BroadcastsInDim S32768x512 (![0, 1] : Fin 2 → Fin S32768x512.rank)
  slices_S32768x3_S32768x1_0_1 : S32768x3.Slices ![0, 1] S32768x1
  dot_S32768x1920_S1920x512_S32768x512_1_0_0_1_n_n_wf : DotDims.WF S32768x1920 S1920x512 S32768x512 [1] [0] [0] [1] [] []
  dot_S32768x512_S512x512_S32768x512_1_0_0_1_n_n_wf : DotDims.WF S32768x512 S512x512 S32768x512 [1] [0] [0] [1] [] []

variable [Facts₀]

def dot_S32768x1920_S1920x512_S32768x512_1_0_0_1_n_n : DotDims S32768x1920 S1920x512 S32768x512 where
  lhsContracting := [1]
  rhsContracting := [0]
  lhsNonContracting := [0]
  rhsNonContracting := [1]
  lhsBatch := []
  rhsBatch := []
  wf := dot_S32768x1920_S1920x512_S32768x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.LibSumSplit.lean ====
/-
  A finite sum over `Fin n`, where `n` is a sum of five extents, taken extent by extent: the terms at positions
  `0 ≤ d < n0`, then `n0 ≤ · < n0 + n1`, and so on, added left to right. This is what contracting over an axis made by
  laying five pieces end to end amounts to. It holds in any additive commutative monoid (only associativity of the sum
  is used), so on the extended reals it asks nothing of the terms: infinities are allowed.
-/
import Mathlib.Algebra.BigOperators.Fin

open scoped BigOperators

namespace Cert.SumSplit

variable {M : Type*} [AddCommMonoid M]

/-- Two extents: the sum over `Fin n`, `n = a + b`, is the sum of the first `a` terms plus the sum of the last `b`. -/
theorem sum_two {n : ℕ} (a b : ℕ) (h : a + b = n) (g : Fin n → M) :
    ∑ d, g d = (∑ d : Fin a, g ⟨d.val, by have := d.isLt; omega⟩) + ∑ d : Fin b, g ⟨a + d.val, by have := d.isLt; omega⟩ := by
  subst h
  rw [Fin.sum_univ_add]
  rfl

/-- Five extents, the partial sums added left to right. -/
theorem sum_five {n : ℕ} (n0 n1 n2 n3 n4 : ℕ) (h : n0 + n1 + n2 + n3 + n4 = n) (g : Fin n → M) :
    ∑ d, g d =
      (∑ d : Fin n0, g ⟨d.val, by have := d.isLt; omega⟩)
      + (∑ d : Fin n1, g ⟨n0 + d.val, by have := d.isLt; omega⟩)
      + (∑ d : Fin n2, g ⟨n0 + n1 + d.val, by have := d.isLt; omega⟩)
      + (∑ d : Fin n3, g ⟨n0 + n1 + n2 + d.val, by have := d.isLt; omega⟩)
      + (∑ d : Fin n4, g ⟨n0 + n1 + n2 + n3 + d.val, by have := d.isLt; omega⟩) := by
  rw [sum_two (n0 + n1 + n2 + n3) n4 h g,
    sum_two (n0 + n1 + n2) n3 rfl (fun d : Fin (n0 + n1 + n2 + n3) => g ⟨d.val, by have := d.isLt; omega⟩),
    sum_two (n0 + n1) n2 rfl (fun d : Fin (n0 + n1 + n2) => g ⟨d.val, by have := d.isLt; omega⟩),
    sum_two n0 n1 rfl (fun d : Fin (n0 + n1) => g ⟨d.val, by have := d.isLt; omega⟩)]

end Cert.SumSplit
-- ==== Proof.MaskedMlp.lean ====
/-
  THE SPECIFICATION. Both programs compute, for every row `r` of the batch and every output feature `c`,

      out r c = ( relu ( relu ( X r · W1 + b1 ) · W2 + b2 ) · W3 + b3 ) c  ·  (1 − mask r)

  where `X r` is row `r` of five arrays laid side by side (512 | 768 | 256 | 256 | 128 features, 1920 in all), `relu x`
  is the larger of `x` and the zero word, and `mask r` is an integer mask entry read as a real. Over the extended reals
  a change of float format is the identity, so the only thing left between the two texts is HOW the first contraction
  over the 1920 joined features is written: one program adds five partial products, one per piece, left to right; the
  other contracts over the joined row at once. The two agree because a finite sum may be taken piece by piece
  (`Cert.SumSplit.sum_five`): associativity of addition only, so nothing is asked of the entries — they may be ±∞.

  Everything here is stated row by row over plain functions of `Fin` coordinates: the value at `(r, c)` depends on row
  `r` of the data arrays only, which is why a block of 512 rows of the result is the same function of the
  corresponding 512 rows of the data.
-/
import Idealize.ShloMosaic.PureOps.Ideal
import Idealize.ShloMosaic.Lib.ValueIdx
import proofs.«132250_j78039555768356_2_alg».proof.Proof.LibSumSplit

noncomputable section

open scoped BigOperators

namespace Cert.MaskedMlp

open Idealize.ShloMosaic Idealize.ShloMosaic.ValueIdx

/-- The word a rectifier compares against: the f32 zero pattern, read as an extended real (never evaluated here:
    the same word stands on both sides). -/
abbrev clampW : EReal := Ideal.ofBits .f32 0x00000000#32

/-- The f32 pattern of one, read as an extended real (likewise never evaluated). -/
abbrev oneW : EReal := Ideal.ofBits .f32 0x3F800000#32

/-- The rectifier: the larger of `x` and the zero word. -/
def relu (x : EReal) : EReal := max x clampW

/-- What a mask entry `msk` (already read as a real) keeps of a value: the factor `1 − msk`. -/
def keep (msk : EReal) : EReal := oneW - msk

variable {n0 n1 n2 n3 n4 n h h2 o : ℕ}

/-- The first contraction written PIECE BY PIECE: five partial products of a row's five pieces with the matching rows
    of the weight matrix, added left to right. -/
def seg5 (a : Fin n0 → EReal) (t : Fin n1 → EReal) (k : Fin n2 → EReal) (c : Fin n3 → EReal) (s : Fin n4 → EReal)
    (Wa : Fin n0 → Fin h → EReal) (Wt : Fin n1 → Fin h → EReal) (Wk : Fin n2 → Fin h → EReal) (Wc : Fin n3 → Fin h → EReal)
    (Ws : Fin n4 → Fin h → EReal) (j : Fin h) : EReal :=
  (∑ d, a d * Wa d j) + (∑ d, t d * Wt d j) + (∑ d, k d * Wk d j) + (∑ d, c d * Wc d j) + (∑ d, s d * Ws d j)

/-- One dense layer at output feature `j`: the row against column `j` of the weights, plus the bias. -/
def layer (x : Fin n → EReal) (W : Fin n → Fin h → EReal) (b : Fin h → EReal) (j : Fin h) : EReal :=
  (∑ d, x d * W d j) + b j

/-- From the first contraction `pre` (bias not yet added) to the network's output at feature `c`: bias and rectifier,
    a second dense layer and rectifier, a third dense layer. -/
def tail (pre : Fin h → EReal) (b1 : Fin h → EReal) (W2 : Fin h → Fin h2 → EReal) (b2 : Fin h2 → EReal)
    (W3 : Fin h2 → Fin o → EReal) (b3 : Fin o → EReal) (c : Fin o) : EReal :=
  layer (fun k => relu (layer (fun j => relu (pre j + b1 j)) W2 b2 k)) W3 b3 c

/-- THE LAW BETWEEN THE TWO TEXTS: contracting a row `J` of `n = n0 + n1 + n2 + n3 + n4` joined features against column
    `j` of `W` is the five partial products of the pieces `J` was made from. No finiteness is used. -/
theorem joined_eq_seg5 (hn : n0 + n1 + n2 + n3 + n4 = n) (J : Fin n → EReal) (W : Fin n → Fin h → EReal)
    (a : Fin n0 → EReal) (t : Fin n1 → EReal) (k : Fin n2 → EReal) (c : Fin n3 → EReal) (s : Fin n4 → EReal)
    (ha : ∀ d : Fin n0, J ⟨d.val, by have := d.isLt; omega⟩ = a d)
    (ht : ∀ d : Fin n1, J ⟨n0 + d.val, by have := d.isLt; omega⟩ = t d)
    (hk : ∀ d : Fin n2, J ⟨n0 + n1 + d.val, by have := d.isLt; omega⟩ = k d)
    (hc : ∀ d : Fin n3, J ⟨n0 + n1 + n2 + d.val, by have := d.isLt; omega⟩ = c d)
    (hs : ∀ d : Fin n4, J ⟨n0 + n1 + n2 + n3 + d.val, by have := d.isLt; omega⟩ = s d) (j : Fin h) :
    ∑ d, J d * W d j =
      seg5 a t k c s (fun d => W ⟨d.val, by have := d.isLt; omega⟩) (fun d => W ⟨n0 + d.val, by have := d.isLt; omega⟩)
        (fun d => W ⟨n0 + n1 + d.val, by have := d.isLt; omega⟩) (fun d => W ⟨n0 + n1 + n2 + d.val, by have := d.isLt; omega⟩)
        (fun d => W ⟨n0 + n1 + n2 + n3 + d.val, by have := d.isLt; omega⟩) j := by
  rw [Cert.SumSplit.sum_five n0 n1 n2 n3 n4 hn (fun d => J d * W d j)]
  unfold seg5
  simp only [ha, ht, hk, hc, hs]

/-! ## Whole arrays -/

/-- A matrix of extended reals with `r` rows and `c` columns, as the programs index it. -/
abbrev Arr (r c : ℕ) : Type := (⟨2, ![r, c]⟩ : Shape).Idx → EReal

/-- A vector of `n` extended reals, as the programs index it. -/
abbrev Vc (n : ℕ) : Type := (⟨1, ![n]⟩ : Shape).Idx → EReal

/-- Rows `off … off + m − 1` of a matrix, as a function of the row inside the piece and the column. -/
def rowsFrom {N m w : ℕ} (W : Arr N w) (off : ℕ) (hle : off + m ≤ N) : Fin m → Fin w → EReal :=
  fun d j => W (ix2 ⟨off + d.val, by have := d.isLt; omega⟩ j)

/-- THE RESULT ARRAY: at `(r, c)`, the three-layer network of row `r` of the five data arrays `x | t | k | c | s`
    (weights `W1` — its 1920 rows cut 512 | 768 | 256 | 256 | 128 —, `W2`, `W3`, biases `b1`, `b2`, `b3`), times what
    row `r`'s mask entry `msk r` keeps. General in the number of rows `R`: a block of rows is the same function. -/
def recon {R : ℕ} (x : Arr R 512) (t : Arr R 768) (k c : Arr R 256) (s : Arr R 128) (msk : Fin R → EReal)
    (W1 : Arr 1920 512) (b1 : Vc 512) (W2 : Arr 512 512) (b2 : Vc 512) (W3 : Arr 512 512) (b3 : Vc 512) : Arr R 512 :=
  fun i =>
    tail
      (seg5 (fun d => x (ix2 (i 0) d)) (fun d => t (ix2 (i 0) d)) (fun d => k (ix2 (i 0) d)) (fun d => c (ix2 (i 0) d))
        (fun d => s (ix2 (i 0) d))
        (rowsFrom W1 0 (m := 512) (by norm_num)) (rowsFrom W1 512 (m := 768) (by norm_num))
        (rowsFrom W1 1280 (m := 256) (by norm_num)) (rowsFrom W1 1536 (m := 256) (by norm_num))
        (rowsFrom W1 1792 (m := 128) (by norm_num)))
      (fun j => b1 (ix1 j)) (fun j k' => W2 (ix2 j k')) (fun k' => b2 (ix1 k')) (fun k' c' => W3 (ix2 k' c'))
      (fun c' => b3 (ix1 c')) (i 1)
    * keep (msk (i 0))

end Cert.MaskedMlp

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibBroadcast.lean ====
/-
  Small layout operations read at an index: a vector as a row, a row or a vector broadcast down the rows, a vector as
  a column, a column broadcast across the columns, and a splat constant. Generic in the extents.
-/
import Idealize.ShloMosaic.PureOps.Ideal
import Idealize.ShloMosaic.Lib.Pipeline.Value
import Idealize.ShloMosaic.Lib.ValueIdx

noncomputable section

namespace Cert.Layout

open Idealize.ShloMosaic Idealize.ShloMosaic.ValueIdx

variable {α : Type} {m n : Nat}

/-- A vector `[n]` reshaped to a row `[1, n]`, read at `(0, k)`. -/
theorem row_of_vec_apply (x : (⟨1, ![n]⟩ : Shape).Idx → α) (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]; show k.val = 0 * n + k.val; omega)

/-- A vector `[n]` as a row `[1, n]` broadcast down `m` rows, read at `(p, k)`. -/
theorem rows_of_vec_apply (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (k : Fin n) :
    broadcastInDim ⟨2, ![m, n]⟩ ![0, 1] h2 (broadcastInDim ⟨2, ![1, n]⟩ ![1] h1 x) (ix2 p k) = x (ix1 k) := by
  have hk : k.val < n := k.isLt
  refine (broadcastInDim_apply ![0, 1] h2 _ (ix2 p k) (ix2 0 k) (fun a => ?_)).trans
    (broadcastInDim_apply ![1] h1 x (ix2 0 k) (ix1 k) (fun a => ?_))
  · match a with
    | ⟨0, _⟩ => show (0 : ℕ) = if (1 : ℕ) = 1 then 0 else _; rw [if_pos rfl]
    | ⟨1, _⟩ =>
      show k.val = if n = 1 then 0 else k.val
      split
      · omega
      · rfl
  · match a with
    | ⟨0, _⟩ =>
      show k.val = if n = 1 then 0 else k.val
      split
      · omega
      · rfl

/-- A per-row vector `[m]` as a column `[m, 1]`, read at `(e, 0)`. -/
theorem col_of_vec_apply (v : (⟨1, ![m]⟩ : Shape).Idx → α)
    (h : (⟨1, ![m]⟩ : Shape).BroadcastsInDim ⟨2, ![m, 1]⟩ ![0]) (e : Fin m) :
    broadcastInDim ⟨2, ![m, 1]⟩ ![0] h v (ix2 e 0) = v (ix1 e) := by
  have he : e.val < m := e.isLt
  refine broadcastInDim_apply ![0] h v (ix2 e 0) (ix1 e) (fun a => ?_)
  match a with
  | ⟨0, _⟩ =>
    show e.val = if m = 1 then 0 else e.val
    split
    · omega
    · rfl

/-- A column `[m, 1]` broadcast across `n` columns, read at `(e, c)`. -/
theorem cols_of_col_apply (w : (⟨2, ![m, 1]⟩ : Shape).Idx → α)
    (h : (⟨2, ![m, 1]⟩ : Shape).BroadcastsInDim ⟨2, ![m, n]⟩ ![0, 1]) (e : Fin m) (c : Fin n) :
    broadcastInDim ⟨2, ![m, n]⟩ ![0, 1] h w (ix2 e c) = w (ix2 e 0) := by
  have he : e.val < m := e.isLt
  refine broadcastInDim_apply ![0, 1] h w (ix2 e c) (ix2 e 0) (fun a => ?_)
  match a with
  | ⟨0, _⟩ =>
    show e.val = if m = 1 then 0 else e.val
    split
    · omega
    · rfl
  | ⟨1, _⟩ => show (0 : ℕ) = if (1 : ℕ) = 1 then 0 else _; rw [if_pos rfl]

/-- A splat of a float word, read anywhere, is the word read as an extended real. -/
theorem splat_apply {s : Shape} (hb : (⟨0, ![]⟩ : Shape).BroadcastsInDim s (![] : Fin 0 → Fin s.rank)) (w : BitVec 32) (i : s.Idx) :
    broadcastInDim s ![] hb (constant (F := Ideal) ⟨0, ![]⟩ .f32 w) i = Ideal.ofBits .f32 w := rfl

end Cert.Layout

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.BlockSide.lean ====
/-
  THE KERNEL'S SIDE, one block of 512 rows at a time. The body of the kernel computes its two output blocks from the
  blocks it loads by pure vector terms (the generated payloads). Read at an entry `(p, c)` of the block, over the
  extended reals — where narrowing a float to a shorter format is the identity and a matrix product into a zero
  accumulator is the plain sum over the contraction coordinate — these terms are the specification's row-wise functions
  (`Cert.MaskedMlp.seg5`, `tail`, `keep`) of row `p` of the loaded blocks:

  * the first layer is five products (one per piece of the input row, each against its own rows of the first weight
    matrix) added left to right: `seg5`;
  * a bias vector, reshaped to a row and spread down the 512 rows, is read at its column; the rectifier is the larger of
    the value and the zero word; two more products and biases follow: `tail`;
  * the mask block is read as reals, one of its columns is cut out, subtracted from one, and spread across the 512
    features: the factor `keep` of the row's mask entry.
-/
import Idealize.ShloMosaic.PureOps.Ideal
import Idealize.ShloMosaic.PureOps.Ideal.Laws
import Idealize.ShloMosaic.Lib.Pipeline.Value
import Idealize.ShloMosaic.Lib.ValueIdx
import proofs.«132250_j78039555768356_2_alg».proof.Proof.Gen.KernelIdeal.Skeleton
import proofs.«132250_j78039555768356_2_alg».proof.Proof.MaskedMlp
import proofs.«132250_j78039555768356_2_alg».proof.Proof.LibMatProd
import proofs.«132250_j78039555768356_2_alg».proof.Proof.LibBroadcast
import proofs.«132250_j78039555768356_2_alg».proof.Proof.LibBroadcastTo

noncomputable section

open scoped BigOperators

namespace Cert.BlockSide

open Idealize.ShloMosaic Idealize.ShloMosaic.ValueIdx Cert.KernelIdeal Cert.KernelIdeal.Gen Cert.MaskedMlp

/-! ## The building blocks, general in the extents -/

/-- A bias vector `[n]`, reshaped to a row `[1, n]` and spread down `m` rows, read at `(p, j)`: its entry `j`. -/
theorem bias_row {m n : ℕ} {φ : FTy} (v : FVec Ideal ⟨1, ![n]⟩ φ) (sc : (⟨1, ![n]⟩ : Shape).ShapeCasts ⟨2, ![1, n]⟩)
    (bc : (⟨2, ![1, n]⟩ : Shape).Broadcasts ⟨2, ![m, n]⟩) (p : Fin m) (j : Fin n) :
    broadcastTo ⟨2, ![m, n]⟩ (shapeCast ⟨2, ![1, n]⟩ v sc) bc (ix2 p j) = v (ix1 j) :=
  (Cert.BroadcastTo.row_apply _ bc p j).trans (Cert.Layout.row_of_vec_apply v sc j)

/-- A plain matrix product into a zero accumulator, its right operand passed through a reshape to its own shape, read
    at `(p, j)`: the sum over the contraction coordinate of the products of the entries. -/
theorem prod_entry {M K N : ℕ} {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (hs : (⟨2, ![K, N]⟩ : Shape).ShapeCasts ⟨2, ![K, N]⟩)
    (p : Fin M) (j : Fin N) :
    matmul d none l (shapeCast ⟨2, ![K, N]⟩ r hs) (constant ⟨2, ![M, N]⟩ .f32 0x00000000#32) (ix2 p j)
      = ∑ k : Fin K, l (ix2 p k) * r (ix2 k j) := by
  subst hd
  rw [shapeCast_self]
  exact Cert.MatProd.matmul_plain_zero_apply none l r p j

/-! ## The first layer's five partial products -/

/-- The sum of the five partial products, read at `(p, j)`: `seg5` of row `p` of the five data blocks against the five
    loaded pieces of the first weight matrix. -/
theorem pay7_entry (v2 : Vec Ideal S512x512 .f32) (v4 : Vec Ideal S512x768 .f32) (v6 v8 : Vec Ideal S512x256 .f32)
    (v10 : Vec Ideal S512x128 .f32) (v12 : Vec Ideal S512x512 .bf16) (v15 : Vec Ideal S768x512 .bf16)
    (v19 v23 : Vec Ideal S256x512 .bf16) (v27 : Vec Ideal S128x512 .bf16) (p j : Fin 512) :
    k0_pay7 v2 v4 v6 v8 v10 v12 v15 v19 v23 v27 (ix2 p j)
      = seg5 (fun d => v2 (ix2 p d)) (fun d => v4 (ix2 p d)) (fun d => v6 (ix2 p d)) (fun d => v8 (ix2 p d))
          (fun d => v10 (ix2 p d)) (fun d j' => v12 (ix2 d j')) (fun d j' => v15 (ix2 d j')) (fun d j' => v19 (ix2 d j'))
          (fun d j' => v23 (ix2 d j')) (fun d j' => v27 (ix2 d j')) j := by
  unfold k0_pay7 k0_pay3 k0_pay4 k0_pay5 k0_pay6 seg5
  simp only [addf_apply, prod_entry dot_S512x512_S512x512_S512x512_1_0_0_1_n_n rfl,
    prod_entry dot_S512x768_S768x512_S512x512_1_0_0_1_n_n rfl, prod_entry dot_S512x256_S256x512_S512x512_1_0_0_1_n_n rfl,
    prod_entry dot_S512x128_S128x512_S512x512_1_0_0_1_n_n rfl, truncf_apply]

/-! ## Bias, rectifier and the two further layers -/

/-- From the first contraction to the network's output, read at `(p, c)`: `tail` of row `p` of the contraction. -/
theorem pay8_entry (v30 : FVec Ideal S512x512 .f32) (v31 : Vec Ideal S512 .f32) (v38 : Vec Ideal S512x512 .bf16)
    (v41 : Vec Ideal S512 .f32) (v48 : Vec Ideal S512x512 .bf16) (v51 : Vec Ideal S512 .f32) (p c : Fin 512) :
    k0_pay8 v30 v31 v38 v41 v48 v51 (ix2 p c)
      = tail (fun j => v30 (ix2 p j)) (fun j => v31 (ix1 j)) (fun j k => v38 (ix2 j k)) (fun k => v41 (ix1 k))
          (fun k c' => v48 (ix2 k c')) (fun c' => v51 (ix1 c')) c := by
  unfold k0_pay8 tail layer relu
  simp only [addf_apply, maximumf_apply, truncf_apply, broadcast_apply, bias_row,
    prod_entry dot_S512x512_S512x512_S512x512_1_0_0_1_n_n rfl]
  rfl

/-! ## The keep factor -/

/-- The mask block read as reals, column `o` cut out, subtracted from one: at row `p` what the row's mask entry keeps. -/
theorem keep_col (o : ℕ) (ho3 : o < 3) (v98 : Vec Ideal S512x3 .i32) (hs : S512x3.Slices ![0, o] S512x1) (p : Fin 512) :
    subf (broadcast S512x1 (Scalar.ofBits (F := Ideal) .f32 0x3F800000#32))
        (extractStridedSlice S512x1 ![0, o] (k0_pay12 (F := Ideal) v98) hs) (ix2 p 0)
      = keep (FloatOps.sitofp (F := Ideal) .f32 (v98 (ix2 p ⟨o, ho3⟩))) := by
  unfold keep k0_pay12
  rw [subf_apply, broadcast_apply,
    extractStridedSlice_apply ![0, o] _ hs (ix2 p 0) (ix2 p ⟨o, ho3⟩) (fun a => by
      match a with
      | ⟨0, _⟩ => show p.val = 0 + p.val; omega
      | ⟨1, _⟩ => show o = o + 0; omega)]
  rfl

/-- The first network's stored block at `(p, c)`: its output there times what row `p`'s mask entry (column 0) keeps. -/
theorem pay14_entry (v54 : FVec Ideal S512x512 .f32) (v98 : Vec Ideal S512x3 .i32) (p c : Fin 512) :
    k0_pay14 v54 v98 (ix2 p c) = v54 (ix2 p c) * keep (FloatOps.sitofp (F := Ideal) .f32 (v98 (ix2 p ⟨0, by norm_num⟩))) := by
  unfold k0_pay14
  rw [mulf_apply, Cert.BroadcastTo.col_apply, keep_col 0 (by norm_num)]

/-- The second network's keep column at row `p` (mask column 1). -/
theorem pay13_entry (v98 : Vec Ideal S512x3 .i32) (p : Fin 512) :
    k0_pay13 v98 (ix2 p 0) = keep (FloatOps.sitofp (F := Ideal) .f32 (v98 (ix2 p ⟨1, by norm_num⟩))) := by
  unfold k0_pay13
  exact keep_col 1 (by norm_num) v98 _ p

/-- The second network's stored block at `(p, c)`: its output there times the keep column at row `p`. -/
theorem pay1_entry (v97 : FVec Ideal S512x512 .f32) (v105 : FVec Ideal S512x1 .f32) (p c : Fin 512) :
    k0_pay1 v97 v105 (ix2 p c) = v97 (ix2 p c) * v105 (ix2 p 0) := by
  unfold k0_pay1
  rw [mulf_apply, Cert.BroadcastTo.col_apply]

/-! ## The second network: the same sum, cut differently by the text -/

/-- The first three partial products of the second network, read at `(p, j)`. -/
theorem pay9_entry (v1 : FVec Ideal S512x512 .bf16) (v5 : FVec Ideal S512x768 .bf16) (v7 : FVec Ideal S512x256 .bf16)
    (v55 : Vec Ideal S512x512 .bf16) (v58 : Vec Ideal S768x512 .bf16) (v62 : Vec Ideal S256x512 .bf16) (p j : Fin 512) :
    k0_pay9 v1 v5 v7 v55 v58 v62 (ix2 p j)
      = (∑ d : Fin 512, v1 (ix2 p d) * v55 (ix2 d j)) + (∑ d : Fin 768, v5 (ix2 p d) * v58 (ix2 d j))
        + (∑ d : Fin 256, v7 (ix2 p d) * v62 (ix2 d j)) := by
  unfold k0_pay9
  simp only [addf_apply, prod_entry dot_S512x512_S512x512_S512x512_1_0_0_1_n_n rfl,
    prod_entry dot_S512x768_S768x512_S512x512_1_0_0_1_n_n rfl, prod_entry dot_S512x256_S256x512_S512x512_1_0_0_1_n_n rfl]

/-- The fourth partial product of the second network, read at `(p, j)`. -/
theorem pay10_entry (v9 : FVec Ideal S512x256 .bf16) (v66 : Vec Ideal S256x512 .bf16) (p j : Fin 512) :
    k0_pay10 v9 v66 (ix2 p j) = ∑ d : Fin 256, v9 (ix2 p d) * v66 (ix2 d j) := by
  unfold k0_pay10
  exact prod_entry dot_S512x256_S256x512_S512x512_1_0_0_1_n_n rfl v9 v66 _ p j

/-- The fifth partial product added to the four before it, then bias, rectifier and the two further layers, read at
    `(p, c)`: `tail` of the completed first contraction. -/
theorem pay11_entry (v11 : FVec Ideal S512x128 .bf16) (v65 v68 : FVec Ideal S512x512 .f32) (v70 : Vec Ideal S128x512 .bf16)
    (v74 : Vec Ideal S512 .f32) (v81 : Vec Ideal S512x512 .bf16) (v84 : Vec Ideal S512 .f32) (v91 : Vec Ideal S512x512 .bf16)
    (v94 : Vec Ideal S512 .f32) (p c : Fin 512) :
    k0_pay11 v11 v65 v68 v70 v74 v81 v84 v91 v94 (ix2 p c)
      = tail (fun j => v65 (ix2 p j) + v68 (ix2 p j) + ∑ d : Fin 128, v11 (ix2 p d) * v70 (ix2 d j)) (fun j => v74 (ix1 j))
          (fun j k => v81 (ix2 j k)) (fun k => v84 (ix1 k)) (fun k c' => v91 (ix2 k c')) (fun c' => v94 (ix1 c')) c := by
  unfold k0_pay11 tail layer relu
  simp only [addf_apply, maximumf_apply, truncf_apply, broadcast_apply, bias_row,
    prod_entry dot_S512x512_S512x512_S512x512_1_0_0_1_n_n rfl, prod_entry dot_S512x128_S128x512_S512x512_1_0_0_1_n_n rfl]
  rfl

/-! ## The two stored blocks as functions of the loaded blocks -/

/-- THE FIRST OUTPUT BLOCK at `(p, c)`: the three-layer network of row `p` of the loaded blocks (`x` the first piece of the
    input row; `Wa … Ws` the five loaded pieces of the first weight matrix), times what the row's mask entry keeps. -/
theorem first_block (x : Vec Ideal S512x512 .f32) (t : Vec Ideal S512x768 .f32) (k c : Vec Ideal S512x256 .f32)
    (s : Vec Ideal S512x128 .f32) (Wa : Vec Ideal S512x512 .bf16) (Wt : Vec Ideal S768x512 .bf16)
    (Wk Wc : Vec Ideal S256x512 .bf16) (Ws : Vec Ideal S128x512 .bf16) (b1 : Vec Ideal S512 .f32)
    (W2 : Vec Ideal S512x512 .bf16) (b2 : Vec Ideal S512 .f32) (W3 : Vec Ideal S512x512 .bf16) (b3 : Vec Ideal S512 .f32)
    (mask : Vec Ideal S512x3 .i32) (p q : Fin 512) :
    k0_pay14 (k0_pay8 (k0_pay7 x t k c s Wa Wt Wk Wc Ws) b1 W2 b2 W3 b3) mask (ix2 p q)
      = tail (seg5 (fun d => x (ix2 p d)) (fun d => t (ix2 p d)) (fun d => k (ix2 p d)) (fun d => c (ix2 p d))
            (fun d => s (ix2 p d)) (fun d j => Wa (ix2 d j)) (fun d j => Wt (ix2 d j)) (fun d j => Wk (ix2 d j))
            (fun d j => Wc (ix2 d j)) (fun d j => Ws (ix2 d j)))
          (fun j => b1 (ix1 j)) (fun j k' => W2 (ix2 j k')) (fun k' => b2 (ix1 k')) (fun k' c' => W3 (ix2 k' c'))
          (fun c' => b3 (ix1 c')) q
        * keep (FloatOps.sitofp (F := Ideal) .f32 (mask (ix2 p ⟨0, by norm_num⟩))) := by
  rw [pay14_entry, pay8_entry]
  simp only [pay7_entry]

/-- THE SECOND OUTPUT BLOCK at `(p, c)`: the same function of its own loaded blocks, with mask column 1. -/
theorem second_block (x : Vec Ideal S512x512 .f32) (t : Vec Ideal S512x768 .f32) (k c : Vec Ideal S512x256 .f32)
    (s : Vec Ideal S512x128 .f32) (Wa : Vec Ideal S512x512 .bf16) (Wt : Vec Ideal S768x512 .bf16)
    (Wk Wc : Vec Ideal S256x512 .bf16) (Ws : Vec Ideal S128x512 .bf16) (b1 : Vec Ideal S512 .f32)
    (W2 : Vec Ideal S512x512 .bf16) (b2 : Vec Ideal S512 .f32) (W3 : Vec Ideal S512x512 .bf16) (b3 : Vec Ideal S512 .f32)
    (mask : Vec Ideal S512x3 .i32) (p q : Fin 512) :
    k0_pay1 (k0_pay11 (k0_pay6 s) (k0_pay9 (k0_pay2 x) (k0_pay3 t) (k0_pay4 k) Wa Wt Wk) (k0_pay10 (k0_pay5 c) Wc) Ws b1 W2 b2 W3 b3)
        (k0_pay13 mask) (ix2 p q)
      = tail (seg5 (fun d => x (ix2 p d)) (fun d => t (ix2 p d)) (fun d => k (ix2 p d)) (fun d => c (ix2 p d))
            (fun d => s (ix2 p d)) (fun d j => Wa (ix2 d j)) (fun d j => Wt (ix2 d j)) (fun d j => Wk (ix2 d j))
            (fun d j => Wc (ix2 d j)) (fun d j => Ws (ix2 d j)))
          (fun j => b1 (ix1 j)) (fun j k' => W2 (ix2 j k')) (fun k' => b2 (ix1 k')) (fun k' c' => W3 (ix2 k' c'))
          (fun c' => b3 (ix1 c')) q
        * keep (FloatOps.sitofp (F := Ideal) .f32 (mask (ix2 p ⟨1, by norm_num⟩))) := by
  rw [pay1_entry, pay13_entry, pay11_entry]
  simp only [pay9_entry, pay10_entry]
  unfold seg5 k0_pay2 k0_pay3 k0_pay4 k0_pay5 k0_pay6
  rfl

end Cert.BlockSide

end
-- ==== Proof.KernelRun.lean ====
/-
  FROM BLOCKS TO ARRAYS. The kernel runs over 64 grid points; point `t` loads rows `512 t … 512 t + 511` of the six data
  arrays and of the mask, loads the (converted) weight matrices and the biases whole, and writes back rows
  `512 t … 512 t + 511` of each of the two results. What a point writes back is, entry by entry, the specification's
  `recon` of the WHOLE argument arrays read at the entry's place in the result array: the network at `(r, c)` looks at row
  `r` of the data only, and row `p` of point `t`'s blocks is row `512 t + p` of the arrays. The 64 blocks tile the 32768
  rows, so after the run each result array is `recon` of the arguments. The weight matrices reach the kernel through a
  change of float format made on the host before the launch, which is the identity over the extended reals.
-/
import Idealize.ShloMosaic.Lib.Pipeline.Value
import Idealize.ShloMosaic.Lib.StableHlo.Run
import Idealize.ShloMosaic.Lib.ValueIdx
import proofs.«132250_j78039555768356_2_alg».proof.Proof.KernelIdealValue
import proofs.«132250_j78039555768356_2_alg».proof.Proof.BlockSide
import proofs.«132250_j78039555768356_2_alg».proof.Proof.MaskedMlp

noncomputable section

open scoped BigOperators

namespace Cert.KernelRun

open Cert.KernelIdeal Cert.KernelIdeal.Gen Idealize.ShloMosaic Idealize.ShloMosaic.TcCoe Idealize.SL.Sem
open Idealize.ShloMosaic.ValueIdx Cert.MaskedMlp
open Idealize.ShloMosaic.Pipeline (Dat)

/-! ## A block's entry is the whole array's `recon` at the entry's place -/

/-- The five pieces of the first weight matrix the body loads are its rows from 0, 512, 1280, 1536 and 1792 on. -/
theorem ld_piece (W : Vec Ideal S1920x512 .bf16) (W1 : Arr 1920 512) (hW : ∀ a, W a = W1 a) :
    (fun (d : Fin 512) (j : Fin 512) => View.ld W r0_4 (ix2 d j)) = rowsFrom W1 0 (m := 512) (by norm_num)
    ∧ (fun (d : Fin 768) (j : Fin 512) => View.ld W r0_5 (ix2 d j)) = rowsFrom W1 512 (m := 768) (by norm_num)
    ∧ (fun (d : Fin 256) (j : Fin 512) => View.ld W r0_6 (ix2 d j)) = rowsFrom W1 1280 (m := 256) (by norm_num)
    ∧ (fun (d : Fin 256) (j : Fin 512) => View.ld W r0_7 (ix2 d j)) = rowsFrom W1 1536 (m := 256) (by norm_num)
    ∧ (fun (d : Fin 128) (j : Fin 512) => View.ld W r0_8 (ix2 d j)) = rowsFrom W1 1792 (m := 128) (by norm_num) := by
  refine ⟨?_, ?_, ?_, ?_, ?_⟩
  · funext d j
    unfold rowsFrom
    refine (hW _).trans (congrArg W1 (funext fun a => Fin.ext ?_))
    match a with
    | ⟨0, _⟩ => show 0 + 1 * d.val = 0 + d.val; omega
    | ⟨1, _⟩ => show 0 + 1 * j.val = j.val; omega
  · funext d j
    unfold rowsFrom
    refine (hW _).trans (congrArg W1 (funext fun a => Fin.ext ?_))
    match a with
    | ⟨0, _⟩ => show 512 + 1 * d.val = 512 + d.val; omega
    | ⟨1, _⟩ => show 0 + 1 * j.val = j.val; omega
  · funext d j
    unfold rowsFrom
    refine (hW _).trans (congrArg W1 (funext fun a => Fin.ext ?_))
    match a with
    | ⟨0, _⟩ => show 1280 + 1 * d.val = 1280 + d.val; omega
    | ⟨1, _⟩ => show 0 + 1 * j.val = j.val; omega
  · funext d j
    unfold rowsFrom
    refine (hW _).trans (congrArg W1 (funext fun a => Fin.ext ?_))
    match a with
    | ⟨0, _⟩ => show 1536 + 1 * d.val = 1536 + d.val; omega
    | ⟨1, _⟩ => show 0 + 1 * j.val = j.val; omega
  · funext d j
    unfold rowsFrom
    refine (hW _).trans (congrArg W1 (funext fun a => Fin.ext ?_))
    match a with
    | ⟨0, _⟩ => show 1792 + 1 * d.val = 1792 + d.val; omega
    | ⟨1, _⟩ => show 0 + 1 * j.val = j.val; omega

/-- Row `y 0` of a point's blocks being row `i 0` of the arrays, and the weights and biases being the arrays', the
    network of the blocks at column `y 1 = i 1`, times what the block's mask entry keeps, is `recon` of the arrays at `i`. -/
theorem rows_recon {R : ℕ} (o : ℕ) (ho3 : o < 3)
    (x : Vec Ideal S512x512 .f32) (t : Vec Ideal S512x768 .f32) (k c : Vec Ideal S512x256 .f32) (s : Vec Ideal S512x128 .f32)
    (W : Vec Ideal S1920x512 .bf16) (b1 : Vec Ideal S512 .f32) (W2 : Vec Ideal S512x512 .bf16) (b2 : Vec Ideal S512 .f32)
    (W3 : Vec Ideal S512x512 .bf16) (b3 : Vec Ideal S512 .f32) (mask : Vec Ideal S512x3 .i32) (p q : Fin 512)
    (A1 : Arr R 512) (A2 : Arr R 768) (A3 A4 : Arr R 256) (A5 : Arr R 128) (msk : Fin R → EReal)
    (W1 : Arr 1920 512) (B1 : Vc 512) (V2 : Arr 512 512) (B2 : Vc 512) (V3 : Arr 512 512) (B3 : Vc 512)
    (i : (⟨2, ![R, 512]⟩ : Shape).Idx)
    (hx : ∀ d : Fin 512, x (ix2 p d) = A1 (ix2 (i 0) d)) (ht : ∀ d : Fin 768, t (ix2 p d) = A2 (ix2 (i 0) d))
    (hk : ∀ d : Fin 256, k (ix2 p d) = A3 (ix2 (i 0) d)) (hc : ∀ d : Fin 256, c (ix2 p d) = A4 (ix2 (i 0) d))
    (hs : ∀ d : Fin 128, s (ix2 p d) = A5 (ix2 (i 0) d))
    (hm : FloatOps.sitofp (F := Ideal) .f32 (mask (ix2 p ⟨o, ho3⟩)) = msk (i 0))
    (hW : ∀ a, W a = W1 a) (hb1 : ∀ a, b1 a = B1 a) (hW2 : ∀ a, W2 a = V2 a) (hb2 : ∀ a, b2 a = B2 a)
    (hW3 : ∀ a, W3 a = V3 a) (hb3 : ∀ a, b3 a = B3 a) (hcol : q = i 1) :
    tail (seg5 (fun d => x (ix2 p d)) (fun d => t (ix2 p d)) (fun d => k (ix2 p d)) (fun d => c (ix2 p d))
          (fun d => s (ix2 p d)) (fun d j => View.ld W r0_4 (ix2 d j)) (fun d j => View.ld W r0_5 (ix2 d j))
          (fun d j => View.ld W r0_6 (ix2 d j)) (fun d j => View.ld W r0_7 (ix2 d j)) (fun d j => View.ld W r0_8 (ix2 d j)))
        (fun j => b1 (ix1 j)) (fun j k' => W2 (ix2 j k')) (fun k' => b2 (ix1 k')) (fun k' c' => W3 (ix2 k' c'))
        (fun c' => b3 (ix1 c')) q
      * keep (FloatOps.sitofp (F := Ideal) .f32 (mask (ix2 p ⟨o, ho3⟩)))
      = recon A1 A2 A3 A4 A5 msk W1 B1 V2 B2 V3 B3 i := by
  obtain ⟨e4, e5, e6, e7, e8⟩ := ld_piece W W1 hW
  unfold recon
  rw [e4, e5, e6, e7, e8, hm, hcol]
  simp only [hx, ht, hk, hc, hs, hb1, hW2, hb2, hW3, hb3]

/-! ## The arrays as the region finds them -/

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The first network's first weight matrix reaches the kernel through a change of float format on the host: over the
    extended reals the array the region finds is the argument itself. Likewise the five other weight matrices. -/
theorem V_v0 (c : Dev nD) (a : S1920x512.Idx) : (V m c main_v0 : S1920x512.Idx → EReal) a = (m ((c : Thread nD τ).loc main_arg7) : S1920x512.Idx → EReal) a := by
  have e : (V m c main_v0 : S1920x512.Idx → EReal) = truncf (F := Ideal) .bf16 (m ((c : Thread nD τ).loc main_arg7)) bitsLt_bf16_f32 := by
    dsimp only [Gen.V, Gen.hostOps0]; after_results <;> rfl
  rw [e]; rfl

/-- The printed index maps, decided over the 64 grid points: a data window, the mask window and both output windows
    sit at block row `t`, block column 0; every weight and bias window stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_19.index t (0 : Fin 2) = t.val ∧ win0_19.index t (1 : Fin 2) = 0
    ∧ win0_20.index t (0 : Fin 2) = t.val ∧ win0_20.index t (1 : Fin 2) = 0 :=
  (by decide +kernel : ∀ t : Fin grid0.N, _)

theorem idx_facts_w : ∀ t : Fin cfg0.N,
    win0_7.index t (0 : Fin 2) = 0 ∧ win0_7.index t (1 : Fin 2) = 0 ∧ win0_8.index t (0 : Fin 1) = 0
    ∧ win0_9.index t (0 : Fin 2) = 0 ∧ win0_9.index t (1 : Fin 2) = 0 ∧ win0_10.index t (0 : Fin 1) = 0
    ∧ win0_11.index t (0 : Fin 2) = 0 ∧ win0_11.index t (1 : Fin 2) = 0 ∧ win0_12.index t (0 : Fin 1) = 0
    ∧ win0_13.index t (0 : Fin 2) = 0 ∧ win0_13.index t (1 : Fin 2) = 0 ∧ win0_14.index t (0 : Fin 1) = 0
    ∧ win0_15.index t (0 : Fin 2) = 0 ∧ win0_15.index t (1 : Fin 2) = 0 ∧ win0_16.index t (0 : Fin 1) = 0
    ∧ win0_17.index t (0 : Fin 2) = 0 ∧ win0_17.index t (1 : Fin 2) = 0 ∧ win0_18.index t (0 : Fin 1) = 0 :=
  (by decide +kernel : ∀ t : Fin grid0.N, _)

theorem V_v1 (c : Dev nD) (a : S512x512.Idx) : (V m c main_v1 : S512x512.Idx → EReal) a = (m ((c : Thread nD τ).loc main_arg9) : S512x512.Idx → EReal) a := by
  have e : (V m c main_v1 : S512x512.Idx → EReal) = truncf (F := Ideal) .bf16 (m ((c : Thread nD τ).loc main_arg9)) bitsLt_bf16_f32 := by
    dsimp only [Gen.V, Gen.hostOps0]; after_results <;> rfl
  rw [e]; rfl

theorem V_v2 (c : Dev nD) (a : S512x512.Idx) : (V m c main_v2 : S512x512.Idx → EReal) a = (m ((c : Thread nD τ).loc main_arg11) : S512x512.Idx → EReal) a := by
  have e : (V m c main_v2 : S512x512.Idx → EReal) = truncf (F := Ideal) .bf16 (m ((c : Thread nD τ).loc main_arg11)) bitsLt_bf16_f32 := by
    dsimp only [Gen.V, Gen.hostOps0]; after_results <;> rfl
  rw [e]; rfl

theorem V_v3 (c : Dev nD) (a : S1920x512.Idx) : (V m c main_v3 : S1920x512.Idx → EReal) a = (m ((c : Thread nD τ).loc main_arg13) : S1920x512.Idx → EReal) a := by
  have e : (V m c main_v3 : S1920x512.Idx → EReal) = truncf (F := Ideal) .bf16 (m ((c : Thread nD τ).loc main_arg13)) bitsLt_bf16_f32 := by
    dsimp only [Gen.V, Gen.hostOps0]; after_results <;> rfl
  rw [e]; rfl

theorem V_v4 (c : Dev nD) (a : S512x512.Idx) : (V m c main_v4 : S512x512.Idx → EReal) a = (m ((c : Thread nD τ).loc main_arg15) : S512x512.Idx → EReal) a := by
  have e : (V m c main_v4 : S512x512.Idx → EReal) = truncf (F := Ideal) .bf16 (m ((c : Thread nD τ).loc main_arg15)) bitsLt_bf16_f32 := by
    dsimp only [Gen.V, Gen.hostOps0]; after_results <;> rfl
  rw [e]; rfl

theorem V_v5 (c : Dev nD) (a : S512x512.Idx) : (V m c main_v5 : S512x512.Idx → EReal) a = (m ((c : Thread nD τ).loc main_arg17) : S512x512.Idx → EReal) a := by
  have e : (V m c main_v5 : S512x512.Idx → EReal) = truncf (F := Ideal) .bf16 (m ((c : Thread nD τ).loc main_arg17)) bitsLt_bf16_f32 := by
    dsimp only [Gen.V, Gen.hostOps0]; after_results <;> rfl
  rw [e]; rfl

/-! ## The two result arrays as functions of the argument arrays -/

/-- The first result: the network with the first weight set, of `visual | text | keywords | context | speaker`, kept by
    mask column 0. -/
def out0 (c : Dev nD) : S32768x512.Idx → EReal :=
  recon (m ((c : Thread nD τ).loc main_arg1)) (m ((c : Thread nD τ).loc main_arg2)) (m ((c : Thread nD τ).loc main_arg3)) (m ((c : Thread nD τ).loc main_arg4)) (m ((c : Thread nD τ).loc main_arg5))
    (fun r => FloatOps.sitofp (F := Ideal) .f32 ((m ((c : Thread nD τ).loc main_arg6)) (ix2 r ⟨0, by norm_num⟩)))
    (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The second result: the network with the second weight set, of `audio | text | keywords | context | speaker`, kept by
    mask column 1. -/
def out1 (c : Dev nD) : S32768x512.Idx → EReal :=
  recon (m ((c : Thread nD τ).loc main_arg0)) (m ((c : Thread nD τ).loc main_arg2)) (m ((c : Thread nD τ).loc main_arg3)) (m ((c : Thread nD τ).loc main_arg4)) (m ((c : Thread nD τ).loc main_arg5))
    (fun r => FloatOps.sitofp (F := Ideal) .f32 ((m ((c : Thread nD τ).loc main_arg6)) (ix2 r ⟨1, by norm_num⟩)))
    (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-! ## What a point writes back -/

set_option maxHeartbeats 1600000 in
/-- WHAT POINT `t` WRITES BACK to the first result is block `t` of `out0`. -/
theorem flushed19_eq (c : Dev nD) (t : Fin cfg0.N) :
    (dats m 0 c).flushed 19 t = ((cfg0.win 19).blk t).view.read (Elt Ideal) (out0 m c) := by
  rw [Cert.KernelIdeal.ValueP.flushed19]
  unfold out0_19
  rw [View.canon_unit_zero hz2]
  simp only [View.ld_unit_zero (S := S512x512) hz2, View.ld_unit_zero (S := S512x768) hz2, View.ld_unit_zero (S := S512x256) hz2,
    View.ld_unit_zero (S := S512x128) hz2, View.ld_unit_zero (S := S512x3) hz2, View.ld_unit_zero (S := S512) hz1]
  obtain ⟨f0a, f0b, f1a, f1b, f2a, f2b, f3a, f3b, f4a, f4b, f5a, f5b, f6a, f6b, f19a, f19b, f20a, f20b⟩ := idx_facts t
  obtain ⟨g7a, g7b, g8, g9a, g9b, g10, g11a, g11b, g12, g13a, g13b, g14, g15a, g15b, g16, g17a, g17b, g18⟩ := idx_facts_w t
  funext y
  show k0_pay14 (k0_pay8 (k0_pay7 (iblk m c 1 t) (iblk m c 2 t) (iblk m c 3 t) (iblk m c 4 t) (iblk m c 5 t) (View.ld (iblk m c 7 t) r0_4) (View.ld (iblk m c 7 t) r0_5) (View.ld (iblk m c 7 t) r0_6) (View.ld (iblk m c 7 t) r0_7) (View.ld (iblk m c 7 t) r0_8)) (iblk m c 8 t) (iblk m c 9 t) (iblk m c 10 t) (iblk m c 11 t) (iblk m c 12 t)) (iblk m c 6 t) y
    = out0 m c (((cfg0.win 19).blk t).view.emb y)
  refine ((congrArg _ (eq_ix2 y)).trans (Cert.BlockSide.first_block (iblk m c 1 t) (iblk m c 2 t) (iblk m c 3 t) (iblk m c 4 t) (iblk m c 5 t) (View.ld (iblk m c 7 t) r0_4) (View.ld (iblk m c 7 t) r0_5) (View.ld (iblk m c 7 t) r0_6) (View.ld (iblk m c 7 t) r0_7) (View.ld (iblk m c 7 t) r0_8) (iblk m c 8 t) (iblk m c 9 t) (iblk m c 10 t) (iblk m c 11 t) (iblk m c 12 t) (iblk m c 6 t) (y 0) (y 1))).trans ?_
  exact rows_recon 0 (by norm_num) (iblk m c 1 t) (iblk m c 2 t) (iblk m c 3 t) (iblk m c 4 t) (iblk m c 5 t) (iblk m c 7 t) (iblk m c 8 t) (iblk m c 9 t) (iblk m c 10 t) (iblk m c 11 t) (iblk m c 12 t) (iblk m c 6 t) (y 0) (y 1)
    (m ((c : Thread nD τ).loc main_arg1)) (m ((c : Thread nD τ).loc main_arg2)) (m ((c : Thread nD τ).loc main_arg3)) (m ((c : Thread nD τ).loc main_arg4)) (m ((c : Thread nD τ).loc main_arg5))
    (fun r => FloatOps.sitofp (F := Ideal) .f32 ((m ((c : Thread nD τ).loc main_arg6)) (ix2 r ⟨0, by norm_num⟩)))
    (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    (((cfg0.win 19).blk t).view.emb y)
    (fun d => by
      refine (congrFun (V_main_arg1 m c) _).trans (congrArg (m ((c : Thread nD τ).loc main_arg1)) (funext fun a => Fin.ext ?_))
      match a with
      | ⟨0, _⟩ => show win0_1.index t (0 : Fin 2) * 512 + 1 * (y 0).val = win0_19.index t (0 : Fin 2) * 512 + 1 * (y 0).val; omega
      | ⟨1, _⟩ => show win0_1.index t (1 : Fin 2) * 512 + 1 * d.val = d.val; omega)
    (fun d => by
      refine (congrFun (V_main_arg2 m c) _).trans (congrArg (m ((c : Thread nD τ).loc main_arg2)) (funext fun a => Fin.ext ?_))
      match a with
      | ⟨0, _⟩ => show win0_2.index t (0 : Fin 2) * 512 + 1 * (y 0).val = win0_19.index t (0 : Fin 2) * 512 + 1 * (y 0).val; omega
      | ⟨1, _⟩ => show win0_2.index t (1 : Fin 2) * 768 + 1 * d.val = d.val; omega)
    (fun d => by
      refine (congrFun (V_main_arg3 m c) _).trans (congrArg (m ((c : Thread nD τ).loc main_arg3)) (funext fun a => Fin.ext ?_))
      match a with
      | ⟨0, _⟩ => show win0_3.index t (0 : Fin 2) * 512 + 1 * (y 0).val = win0_19.index t (0 : Fin 2) * 512 + 1 * (y 0).val; omega
      | ⟨1, _⟩ => show win0_3.index t (1 : Fin 2) * 256 + 1 * d.val = d.val; omega)
    (fun d => by
      refine (congrFun (V_main_arg4 m c) _).trans (congrArg (m ((c : Thread nD τ).loc main_arg4)) (funext fun a => Fin.ext ?_))
      match a with
      | ⟨0, _⟩ => show win0_4.index t (0 : Fin 2) * 512 + 1 * (y 0).val = win0_19.index t (0 : Fin 2) * 512 + 1 * (y 0).val; omega
      | ⟨1, _⟩ => show win0_4.index t (1 : Fin 2) * 256 + 1 * d.val = d.val; omega)
    (fun d => by
      refine (congrFun (V_main_arg5 m c) _).trans (congrArg (m ((c : Thread nD τ).loc main_arg5)) (funext fun a => Fin.ext ?_))
      match a with
      | ⟨0, _⟩ => show win0_5.index t (0 : Fin 2) * 512 + 1 * (y 0).val = win0_19.index t (0 : Fin 2) * 512 + 1 * (y 0).val; omega
      | ⟨1, _⟩ => show win0_5.index t (1 : Fin 2) * 128 + 1 * d.val = d.val; omega)
    (by
      refine congrArg (FloatOps.sitofp (F := Ideal) .f32) ((congrFun (V_main_arg6 m c) _).trans (congrArg (m ((c : Thread nD τ).loc main_arg6)) (funext fun a => Fin.ext ?_)))
      match a with
      | ⟨0, _⟩ => show win0_6.index t (0 : Fin 2) * 512 + 1 * (y 0).val = win0_19.index t (0 : Fin 2) * 512 + 1 * (y 0).val; omega
      | ⟨1, _⟩ => show win0_6.index t (1 : Fin 2) * 3 + 1 * 0 = 0; omega)
    (fun a' => by
      refine (V_v0 m c _).trans (congrArg _ (funext fun a => Fin.ext ?_))
      match a with
      | ⟨0, _⟩ => show win0_7.index t (0 : Fin 2) * 1920 + 1 * (a' 0).val = (a' 0).val; omega
      | ⟨1, _⟩ => show win0_7.index t (1 : Fin 2) * 512 + 1 * (a' 1).val = (a' 1).val; omega)
    (fun a' => by
      refine (congrFun (V_main_arg8 m c) _).trans (congrArg (m ((c : Thread nD τ).loc main_arg8)) (funext fun a => Fin.ext ?_))
      match a with
      | ⟨0, _⟩ => show win0_8.index t (0 : Fin 1) * 512 + 1 * (a' 0).val = (a' 0).val; omega)
    (fun a' => by
      refine (V_v1 m c _).trans (congrArg _ (funext fun a => Fin.ext ?_))
      match a with
      | ⟨0, _⟩ => show win0_9.index t (0 : Fin 2) * 512 + 1 * (a' 0).val = (a' 0).val; omega
      | ⟨1, _⟩ => show win0_9.index t (1 : Fin 2) * 512 + 1 * (a' 1).val = (a' 1).val; omega)
    (fun a' => by
      refine (congrFun (V_main_arg10 m c) _).trans (congrArg (m ((c : Thread nD τ).loc main_arg10)) (funext fun a => Fin.ext ?_))
      match a with
      | ⟨0, _⟩ => show win0_10.index t (0 : Fin 1) * 512 + 1 * (a' 0).val = (a' 0).val; omega)
    (fun a' => by
      refine (V_v2 m c _).trans (congrArg _ (funext fun a => Fin.ext ?_))
      match a with
      | ⟨0, _⟩ => show win0_11.index t (0 : Fin 2) * 512 + 1 * (a' 0).val = (a' 0).val; omega
      | ⟨1, _⟩ => show win0_11.index t (1 : Fin 2) * 512 + 1 * (a' 1).val = (a' 1).val; omega)
    (fun a' => by
      refine (congrFun (V_main_arg12 m c) _).trans (congrArg (m ((c : Thread nD τ).loc main_arg12)) (funext fun a => Fin.ext ?_))
      match a with
      | ⟨0, _⟩ => show win0_12.index t (0 : Fin 1) * 512 + 1 * (a' 0).val = (a' 0).val; omega)
    (Fin.ext (by show (y 1).val = win0_19.index t (1 : Fin 2) * 512 + 1 * (y 1).val; omega))

set_option maxHeartbeats 1600000 in
/-- WHAT POINT `t` WRITES BACK to the second result is block `t` of `out1`. -/
theorem flushed20_eq (c : Dev nD) (t : Fin cfg0.N) :
    (dats m 0 c).flushed 20 t = ((cfg0.win 20).blk t).view.read (Elt Ideal) (out1 m c) := by
  rw [Cert.KernelIdeal.ValueP.flushed20]
  unfold out0_20
  rw [View.canon_unit_zero hz2]
  simp only [View.ld_unit_zero (S := S512x512) hz2, View.ld_unit_zero (S := S512x768) hz2, View.ld_unit_zero (S := S512x256) hz2,
    View.ld_unit_zero (S := S512x128) hz2, View.ld_unit_zero (S := S512x3) hz2, View.ld_unit_zero (S := S512) hz1]
  obtain ⟨f0a, f0b, f1a, f1b, f2a, f2b, f3a, f3b, f4a, f4b, f5a, f5b, f6a, f6b, f19a, f19b, f20a, f20b⟩ := idx_facts t
  obtain ⟨g7a, g7b, g8, g9a, g9b, g10, g11a, g11b, g12, g13a, g13b, g14, g15a, g15b, g16, g17a, g17b, g18⟩ := idx_facts_w t
  funext y
  show k0_pay1 (k0_pay11 (k0_pay6 (iblk m c 5 t)) (k0_pay9 (k0_pay2 (iblk m c 0 t)) (k0_pay3 (iblk m c 2 t)) (k0_pay4 (iblk m c 3 t)) (View.ld (iblk m c 13 t) r0_4) (View.ld (iblk m c 13 t) r0_5) (View.ld (iblk m c 13 t) r0_6)) (k0_pay10 (k0_pay5 (iblk m c 4 t)) (View.ld (iblk m c 13 t) r0_7)) (View.ld (iblk m c 13 t) r0_8) (iblk m c 14 t) (iblk m c 15 t) (iblk m c 16 t) (iblk m c 17 t) (iblk m c 18 t)) (k0_pay13 (iblk m c 6 t)) y
    = out1 m c (((cfg0.win 20).blk t).view.emb y)
  refine ((congrArg _ (eq_ix2 y)).trans (Cert.BlockSide.second_block (iblk m c 0 t) (iblk m c 2 t) (iblk m c 3 t) (iblk m c 4 t) (iblk m c 5 t) (View.ld (iblk m c 13 t) r0_4) (View.ld (iblk m c 13 t) r0_5) (View.ld (iblk m c 13 t) r0_6) (View.ld (iblk m c 13 t) r0_7) (View.ld (iblk m c 13 t) r0_8) (iblk m c 14 t) (iblk m c 15 t) (iblk m c 16 t) (iblk m c 17 t) (iblk m c 18 t) (iblk m c 6 t) (y 0) (y 1))).trans ?_
  exact rows_recon 1 (by norm_num) (iblk m c 0 t) (iblk m c 2 t) (iblk m c 3 t) (iblk m c 4 t) (iblk m c 5 t) (iblk m c 13 t) (iblk m c 14 t) (iblk m c 15 t) (iblk m c 16 t) (iblk m c 17 t) (iblk m c 18 t) (iblk m c 6 t) (y 0) (y 1)
    (m ((c : Thread nD τ).loc main_arg0)) (m ((c : Thread nD τ).loc main_arg2)) (m ((c : Thread nD τ).loc main_arg3)) (m ((c : Thread nD τ).loc main_arg4)) (m ((c : Thread nD τ).loc main_arg5))
    (fun r => FloatOps.sitofp (F := Ideal) .f32 ((m ((c : Thread nD τ).loc main_arg6)) (ix2 r ⟨1, by norm_num⟩)))
    (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
    (((cfg0.win 20).blk t).view.emb y)
    (fun d => by
      refine (congrFun (V_main_arg0 m c) _).trans (congrArg (m ((c : Thread nD τ).loc main_arg0)) (funext fun a => Fin.ext ?_))
      match a with
      | ⟨0, _⟩ => show win0_0.index t (0 : Fin 2) * 512 + 1 * (y 0).val = win0_20.index t (0 : Fin 2) * 512 + 1 * (y 0).val; omega
      | ⟨1, _⟩ => show win0_0.index t (1 : Fin 2) * 512 + 1 * d.val = d.val; omega)
    (fun d => by
      refine (congrFun (V_main_arg2 m c) _).trans (congrArg (m ((c : Thread nD τ).loc main_arg2)) (funext fun a => Fin.ext ?_))
      match a with
      | ⟨0, _⟩ => show win0_2.index t (0 : Fin 2) * 512 + 1 * (y 0).val = win0_20.index t (0 : Fin 2) * 512 + 1 * (y 0).val; omega
      | ⟨1, _⟩ => show win0_2.index t (1 : Fin 2) * 768 + 1 * d.val = d.val; omega)
    (fun d => by
      refine (congrFun (V_main_arg3 m c) _).trans (congrArg (m ((c : Thread nD τ).loc main_arg3)) (funext fun a => Fin.ext ?_))
      match a with
      | ⟨0, _⟩ => show win0_3.index t (0 : Fin 2) * 512 + 1 * (y 0).val = win0_20.index t (0 : Fin 2) * 512 + 1 * (y 0).val; omega
      | ⟨1, _⟩ => show win0_3.index t (1 : Fin 2) * 256 + 1 * d.val = d.val; omega)
    (fun d => by
      refine (congrFun (V_main_arg4 m c) _).trans (congrArg (m ((c : Thread nD τ).loc main_arg4)) (funext fun a => Fin.ext ?_))
      match a with
      | ⟨0, _⟩ => show win0_4.index t (0 : Fin 2) * 512 + 1 * (y 0).val = win0_20.index t (0 : Fin 2) * 512 + 1 * (y 0).val; omega
      | ⟨1, _⟩ => show win0_4.index t (1 : Fin 2) * 256 + 1 * d.val = d.val; omega)
    (fun d => by
      refine (congrFun (V_main_arg5 m c) _).trans (congrArg (m ((c : Thread nD τ).loc main_arg5)) (funext fun a => Fin.ext ?_))
      match a with
      | ⟨0, _⟩ => show win0_5.index t (0 : Fin 2) * 512 + 1 * (y 0).val = win0_20.index t (0 : Fin 2) * 512 + 1 * (y 0).val; omega
      | ⟨1, _⟩ => show win0_5.index t (1 : Fin 2) * 128 + 1 * d.val = d.val; omega)
    (by
      refine congrArg (FloatOps.sitofp (F := Ideal) .f32) ((congrFun (V_main_arg6 m c) _).trans (congrArg (m ((c : Thread nD τ).loc main_arg6)) (funext fun a => Fin.ext ?_)))
      match a with
      | ⟨0, _⟩ => show win0_6.index t (0 : Fin 2) * 512 + 1 * (y 0).val = win0_20.index t (0 : Fin 2) * 512 + 1 * (y 0).val; omega
      | ⟨1, _⟩ => show win0_6.index t (1 : Fin 2) * 3 + 1 * 1 = 1; omega)
    (fun a' => by
      refine (V_v3 m c _).trans (congrArg _ (funext fun a => Fin.ext ?_))
      match a with
      | ⟨0, _⟩ => show win0_13.index t (0 : Fin 2) * 1920 + 1 * (a' 0).val = (a' 0).val; omega
      | ⟨1, _⟩ => show win0_13.index t (1 : Fin 2) * 512 + 1 * (a' 1).val = (a' 1).val; omega)
    (fun a' => by
      refine (congrFun (V_main_arg14 m c) _).trans (congrArg (m ((c : Thread nD τ).loc main_arg14)) (funext fun a => Fin.ext ?_))
      match a with
      | ⟨0, _⟩ => show win0_14.index t (0 : Fin 1) * 512 + 1 * (a' 0).val = (a' 0).val; omega)
    (fun a' => by
      refine (V_v4 m c _).trans (congrArg _ (funext fun a => Fin.ext ?_))
      match a with
      | ⟨0, _⟩ => show win0_15.index t (0 : Fin 2) * 512 + 1 * (a' 0).val = (a' 0).val; omega
      | ⟨1, _⟩ => show win0_15.index t (1 : Fin 2) * 512 + 1 * (a' 1).val = (a' 1).val; omega)
    (fun a' => by
      refine (congrFun (V_main_arg16 m c) _).trans (congrArg (m ((c : Thread nD τ).loc main_arg16)) (funext fun a => Fin.ext ?_))
      match a with
      | ⟨0, _⟩ => show win0_16.index t (0 : Fin 1) * 512 + 1 * (a' 0).val = (a' 0).val; omega)
    (fun a' => by
      refine (V_v5 m c _).trans (congrArg _ (funext fun a => Fin.ext ?_))
      match a with
      | ⟨0, _⟩ => show win0_17.index t (0 : Fin 2) * 512 + 1 * (a' 0).val = (a' 0).val; omega
      | ⟨1, _⟩ => show win0_17.index t (1 : Fin 2) * 512 + 1 * (a' 1).val = (a' 1).val; omega)
    (fun a' => by
      refine (congrFun (V_main_arg18 m c) _).trans (congrArg (m ((c : Thread nD τ).loc main_arg18)) (funext fun a => Fin.ext ?_))
      match a with
      | ⟨0, _⟩ => show win0_18.index t (0 : Fin 1) * 512 + 1 * (a' 0).val = (a' 0).val; omega)
    (Fin.ext (by show (y 1).val = win0_20.index t (1 : Fin 2) * 512 + 1 * (y 1).val; omega))

/-! ## The blocks tile the arrays -/

/-- An index of the result array is in point `t`'s block iff each coordinate is in the block's range on its axis. -/
theorem mem_blk19 (t : Fin cfg0.N) (i : S32768x512.Idx) :
    i ∈ ((cfg0.win 19).blk t).view.set ↔ ∀ a : Fin 2, win0_19.index t a * S512x512.size a ≤ (i a).val ∧ (i a).val < win0_19.index t a * S512x512.size a + S512x512.size a := by
  show i ∈ ((View.whole main_v6_0).slice (win0_19.rect t)).set ↔ _
  rw [View.set_slice_whole, Rect.mem_set_unit]
  exact Iff.rfl

/-- THE BLOCKS TILE THE ARRAY: row `r` lies in the block of point `r / 512`. -/
theorem cover19 (i : S32768x512.Idx) : ∃ t : Fin cfg0.N, (cfg0.win 19).flush t = true ∧ i ∈ ((cfg0.win 19).blk t).view.set := by
  have hi0 : (i 0).val < 32768 := (i 0).isLt
  have hi1 : (i 1).val < 512 := (i 1).isLt
  have hlt : (i 0).val / 512 < grid0.N := by rw [N_0]; omega
  let t : Fin cfg0.N := ⟨(i 0).val / 512, hlt⟩
  have ht : t.val = (i 0).val / 512 := rfl
  obtain ⟨f0a, f0b, f1a, f1b, f2a, f2b, f3a, f3b, f4a, f4b, f5a, f5b, f6a, f6b, f19a, f19b, f20a, f20b⟩ := idx_facts t
  refine ⟨t, flush0_19 t, ?_⟩
  rw [mem_blk19]
  intro a
  match a with
  | ⟨0, _⟩ => show win0_19.index t (0 : Fin 2) * 512 ≤ (i 0).val ∧ (i 0).val < win0_19.index t (0 : Fin 2) * 512 + 512; omega
  | ⟨1, _⟩ => show win0_19.index t (1 : Fin 2) * 512 ≤ (i 1).val ∧ (i 1).val < win0_19.index t (1 : Fin 2) * 512 + 512; omega

/-- An index of the result array is in point `t`'s block iff each coordinate is in the block's range on its axis. -/
theorem mem_blk20 (t : Fin cfg0.N) (i : S32768x512.Idx) :
    i ∈ ((cfg0.win 20).blk t).view.set ↔ ∀ a : Fin 2, win0_20.index t a * S512x512.size a ≤ (i a).val ∧ (i a).val < win0_20.index t a * S512x512.size a + S512x512.size a := by
  show i ∈ ((View.whole main_v6_1).slice (win0_20.rect t)).set ↔ _
  rw [View.set_slice_whole, Rect.mem_set_unit]
  exact Iff.rfl

/-- THE BLOCKS TILE THE ARRAY: row `r` lies in the block of point `r / 512`. -/
theorem cover20 (i : S32768x512.Idx) : ∃ t : Fin cfg0.N, (cfg0.win 20).flush t = true ∧ i ∈ ((cfg0.win 20).blk t).view.set := by
  have hi0 : (i 0).val < 32768 := (i 0).isLt
  have hi1 : (i 1).val < 512 := (i 1).isLt
  have hlt : (i 0).val / 512 < grid0.N := by rw [N_0]; omega
  let t : Fin cfg0.N := ⟨(i 0).val / 512, hlt⟩
  have ht : t.val = (i 0).val / 512 := rfl
  obtain ⟨f0a, f0b, f1a, f1b, f2a, f2b, f3a, f3b, f4a, f4b, f5a, f5b, f6a, f6b, f19a, f19b, f20a, f20b⟩ := idx_facts t
  refine ⟨t, flush0_20 t, ?_⟩
  rw [mem_blk20]
  intro a
  match a with
  | ⟨0, _⟩ => show win0_20.index t (0 : Fin 2) * 512 ≤ (i 0).val ∧ (i 0).val < win0_20.index t (0 : Fin 2) * 512 + 512; omega
  | ⟨1, _⟩ => show win0_20.index t (1 : Fin 2) * 512 ≤ (i 1).val ∧ (i 1).val < win0_20.index t (1 : Fin 2) * 512 + 512; omega

/-! ## The arrays after the run, and the run -/

/-- After the run the first result array is `out0` of the arguments. -/
theorem final19 (c : Dev nD) : (dats m 0 c).arrAt 19 cfg0.N = out0 m c :=
  (dats m 0 c).arrAt_eq_of_cover 19 (out0 m c) (fun t _ => flushed19_eq m c t) cover19

/-- After the run the second result array is `out1` of the arguments. -/
theorem final20 (c : Dev nD) : (dats m 0 c).arrAt 20 cfg0.N = out1 m c :=
  (dats m 0 c).arrAt_eq_of_cover 20 (out1 m c) (fun t _ => flushed20_eq m c t) cover20

/-- THE KERNEL'S RUN: every weakly fair execution terminates, without a fault, with the two result arrays at `out0` and
    `out1` of the arguments as launched, and the arguments unchanged. -/
theorem run : θ_run defs (onTc (τ := τ) (main (F := Ideal))) ⟨m, fun _ => 0, ρ⟩ fun r => ∀ c : Dev nD,
      r.2.mem ((c : Thread nD τ).loc main_v6_0) = out0 m c
      ∧ r.2.mem ((c : Thread nD τ).loc main_v6_1) = out1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final19 m c), (h c).2.1.trans (final20 m c), (h c).2.2⟩)
    (Cert.KernelIdeal.ValueP.run_blocks m ρ)

end Cert.KernelRun

end
-- ==== Proof.HostSide.lean ====
/-
  THE REFERENCE'S SIDE. The host program joins five arrays side by side (a three-piece concatenation whose last piece is
  itself a three-piece concatenation), contracts the joined rows with the first weight matrix in ONE product, adds the
  bias row, rectifies, applies two more dense layers, and multiplies by the column `1 − mask` spread across the
  features. Read at an entry `(r, j)` this is the specification `Cert.MaskedMlp.recon`: each product is a plain sum over
  its contraction coordinate; a bias row spread down the rows is read at its column; the joined row is read piece by
  piece, which turns the one contraction over 1920 features into the five partial products (`joined_eq_seg5`).
  General in the number of rows.
-/
import Idealize.ShloMosaic.PureOps.Ideal
import Idealize.ShloMosaic.PureOps.Ideal.Laws
import Idealize.ShloMosaic.Lib.Pipeline.Value
import Idealize.ShloMosaic.Lib.ValueIdx
import proofs.«132250_j78039555768356_2_alg».proof.Proof.MaskedMlp
import proofs.«132250_j78039555768356_2_alg».proof.Proof.LibMatProd
import proofs.«132250_j78039555768356_2_alg».proof.Proof.LibBroadcast

noncomputable section

open scoped BigOperators

namespace Cert.HostSide

open Idealize.ShloMosaic Idealize.ShloMosaic.ValueIdx Cert.MaskedMlp

variable {R : ℕ}

/-! ## Three arrays joined side by side, read piece by piece -/

section Joined
variable {α : Type} {n0 n1 n2 n : ℕ}

/-- A column `e` that is column `d` of the FIRST piece reads the first piece there. -/
theorem cat3_at0 (h : Shape.Concatenates [(⟨2, ![R, n0]⟩ : Shape), ⟨2, ![R, n1]⟩, ⟨2, ![R, n2]⟩] ⟨2, ![R, n]⟩ 1)
    (a : (⟨2, ![R, n0]⟩ : Shape).Idx → α) (b : (⟨2, ![R, n1]⟩ : Shape).Idx → α) (c : (⟨2, ![R, n2]⟩ : Shape).Idx → α)
    (r : Fin R) (e : Fin n) (d : Fin n0) (he : e.val = d.val) :
    concatenate ⟨2, ![R, n]⟩ 1 [⟨⟨2, ![R, n0]⟩, a⟩, ⟨⟨2, ![R, n1]⟩, b⟩, ⟨⟨2, ![R, n2]⟩, c⟩] h (ix2 r e) = a (ix2 r d) := by
  refine concatenate_apply_piece (t := ⟨2, ![R, n]⟩) 1
    [⟨⟨2, ![R, n0]⟩, a⟩, ⟨⟨2, ![R, n1]⟩, b⟩, ⟨⟨2, ![R, n2]⟩, c⟩] h _ 0 (by simp) ⟨2, ![R, n0]⟩ a rfl rfl 0 rfl
    (ix2 r d) (fun q hq => ?_) ?_
  · match q with
    | ⟨0, _⟩ => rfl
    | ⟨1, _⟩ => exact absurd rfl hq
  · show 0 + d.val = e.val
    omega

/-- A column `e` that lies `d` columns past the first piece reads the SECOND piece at `d`. -/
theorem cat3_at1 (h : Shape.Concatenates [(⟨2, ![R, n0]⟩ : Shape), ⟨2, ![R, n1]⟩, ⟨2, ![R, n2]⟩] ⟨2, ![R, n]⟩ 1)
    (a : (⟨2, ![R, n0]⟩ : Shape).Idx → α) (b : (⟨2, ![R, n1]⟩ : Shape).Idx → α) (c : (⟨2, ![R, n2]⟩ : Shape).Idx → α)
    (r : Fin R) (e : Fin n) (d : Fin n1) (he : e.val = n0 + d.val) :
    concatenate ⟨2, ![R, n]⟩ 1 [⟨⟨2, ![R, n0]⟩, a⟩, ⟨⟨2, ![R, n1]⟩, b⟩, ⟨⟨2, ![R, n2]⟩, c⟩] h (ix2 r e) = b (ix2 r d) := by
  refine concatenate_apply_piece (t := ⟨2, ![R, n]⟩) 1
    [⟨⟨2, ![R, n0]⟩, a⟩, ⟨⟨2, ![R, n1]⟩, b⟩, ⟨⟨2, ![R, n2]⟩, c⟩] h _ 1 (by simp) ⟨2, ![R, n1]⟩ b rfl rfl n0 rfl
    (ix2 r d) (fun q hq => ?_) ?_
  · match q with
    | ⟨0, _⟩ => rfl
    | ⟨1, _⟩ => exact absurd rfl hq
  · show n0 + d.val = e.val
    omega

/-- A column `e` that lies `d` columns past the first two pieces reads the THIRD piece at `d`. -/
theorem cat3_at2 (h : Shape.Concatenates [(⟨2, ![R, n0]⟩ : Shape), ⟨2, ![R, n1]⟩, ⟨2, ![R, n2]⟩] ⟨2, ![R, n]⟩ 1)
    (a : (⟨2, ![R, n0]⟩ : Shape).Idx → α) (b : (⟨2, ![R, n1]⟩ : Shape).Idx → α) (c : (⟨2, ![R, n2]⟩ : Shape).Idx → α)
    (r : Fin R) (e : Fin n) (d : Fin n2) (he : e.val = n0 + n1 + d.val) :
    concatenate ⟨2, ![R, n]⟩ 1 [⟨⟨2, ![R, n0]⟩, a⟩, ⟨⟨2, ![R, n1]⟩, b⟩, ⟨⟨2, ![R, n2]⟩, c⟩] h (ix2 r e) = c (ix2 r d) := by
  refine concatenate_apply_piece (t := ⟨2, ![R, n]⟩) 1
    [⟨⟨2, ![R, n0]⟩, a⟩, ⟨⟨2, ![R, n1]⟩, b⟩, ⟨⟨2, ![R, n2]⟩, c⟩] h _ 2 (by simp) ⟨2, ![R, n2]⟩ c rfl rfl (n0 + n1) rfl
    (ix2 r d) (fun q hq => ?_) ?_
  · match q with
    | ⟨0, _⟩ => rfl
    | ⟨1, _⟩ => exact absurd rfl hq
  · show n0 + n1 + d.val = e.val
    omega

end Joined

/-! ## The five reads of the host's joined row -/

section Five
variable (hc1 : Shape.Concatenates [(⟨2, ![R, 256]⟩ : Shape), ⟨2, ![R, 256]⟩, ⟨2, ![R, 128]⟩] ⟨2, ![R, 640]⟩ 1)
  (hc2 : Shape.Concatenates [(⟨2, ![R, 512]⟩ : Shape), ⟨2, ![R, 768]⟩, ⟨2, ![R, 640]⟩] ⟨2, ![R, 1920]⟩ 1)
  {α : Type} (x : (⟨2, ![R, 512]⟩ : Shape).Idx → α) (t : (⟨2, ![R, 768]⟩ : Shape).Idx → α)
  (k c : (⟨2, ![R, 256]⟩ : Shape).Idx → α) (s : (⟨2, ![R, 128]⟩ : Shape).Idx → α)

/-- The host's joined array: `x | t | (k | c | s)`. -/
abbrev joined : (⟨2, ![R, 1920]⟩ : Shape).Idx → α :=
  concatenate ⟨2, ![R, 1920]⟩ 1 [⟨⟨2, ![R, 512]⟩, x⟩, ⟨⟨2, ![R, 768]⟩, t⟩,
    ⟨⟨2, ![R, 640]⟩, concatenate ⟨2, ![R, 640]⟩ 1 [⟨⟨2, ![R, 256]⟩, k⟩, ⟨⟨2, ![R, 256]⟩, c⟩, ⟨⟨2, ![R, 128]⟩, s⟩] hc1⟩] hc2

theorem joined_at_x (r : Fin R) (d : Fin 512) :
    joined hc1 hc2 x t k c s (ix2 r ⟨d.val, by have := d.isLt; omega⟩) = x (ix2 r d) :=
  cat3_at0 hc2 _ _ _ r _ d rfl

theorem joined_at_t (r : Fin R) (d : Fin 768) :
    joined hc1 hc2 x t k c s (ix2 r ⟨512 + d.val, by have := d.isLt; omega⟩) = t (ix2 r d) :=
  cat3_at1 hc2 _ _ _ r _ d rfl

theorem joined_at_k (r : Fin R) (d : Fin 256) :
    joined hc1 hc2 x t k c s (ix2 r ⟨512 + 768 + d.val, by have := d.isLt; omega⟩) = k (ix2 r d) :=
  (cat3_at2 hc2 _ _ _ r _ (⟨d.val, by have := d.isLt; omega⟩ : Fin 640) rfl).trans
    (cat3_at0 hc1 _ _ _ r _ d rfl)

theorem joined_at_c (r : Fin R) (d : Fin 256) :
    joined hc1 hc2 x t k c s (ix2 r ⟨512 + 768 + 256 + d.val, by have := d.isLt; omega⟩) = c (ix2 r d) :=
  (cat3_at2 hc2 _ _ _ r _ (⟨256 + d.val, by have := d.isLt; omega⟩ : Fin 640)
      (by show 512 + 768 + 256 + d.val = 512 + 768 + (256 + d.val); omega)).trans
    (cat3_at1 hc1 _ _ _ r _ d rfl)

theorem joined_at_s (r : Fin R) (d : Fin 128) :
    joined hc1 hc2 x t k c s (ix2 r ⟨512 + 768 + 256 + 256 + d.val, by have := d.isLt; omega⟩) = s (ix2 r d) :=
  (cat3_at2 hc2 _ _ _ r _ (⟨256 + 256 + d.val, by have := d.isLt; omega⟩ : Fin 640)
      (by show 512 + 768 + 256 + 256 + d.val = 512 + 768 + (256 + 256 + d.val); omega)).trans
    (cat3_at2 hc1 _ _ _ r _ d rfl)

end Five

/-! ## One dense layer, the rectifier, and the keep column, read at an entry -/

section Layers
variable {M K N : ℕ}

/-- A product with a weight matrix plus a bias row spread down the rows, at `(r, j)`: row `r` against column `j`,
    plus the bias at `j`. -/
theorem dense_apply (hv : (⟨1, ![N]⟩ : Shape).BroadcastsInDim ⟨2, ![1, N]⟩ ![1])
    (hr : (⟨2, ![1, N]⟩ : Shape).BroadcastsInDim ⟨2, ![M, N]⟩ ![0, 1])
    (A : FVec Ideal ⟨2, ![M, K]⟩ .f32) (W : FVec Ideal ⟨2, ![K, N]⟩ .f32) (b : FVec Ideal ⟨1, ![N]⟩ .f32)
    (r : Fin M) (j : Fin N) :
    addf (Host.dotGeneral (DotDims.plain M K N) none A W)
        (broadcastInDim ⟨2, ![M, N]⟩ ![0, 1] hr (broadcastInDim ⟨2, ![1, N]⟩ ![1] hv b)) (ix2 r j)
      = layer (fun d => A (ix2 r d)) (fun d j' => W (ix2 d j')) (fun j' => b (ix1 j')) j := by
  rw [addf_apply, Cert.Layout.rows_of_vec_apply]
  simp only [Host.dotGeneral]
  rw [Cert.MatProd.dotGeneral_plain_apply]
  rfl

/-- A maximum with the zero splat is the rectifier of the entry. -/
theorem relu_apply {sh : Shape} (hz : (⟨0, ![]⟩ : Shape).BroadcastsInDim sh (![] : Fin 0 → Fin sh.rank))
    (A : FVec Ideal sh .f32) (i : sh.Idx) :
    maximumf A (broadcastInDim sh ![] hz (constant (F := Ideal) ⟨0, ![]⟩ .f32 0x00000000#32)) i = relu (A i) := rfl

/-- The column `1 − mask[:, o]` spread across the features, at `(r, j)`: what row `r`'s mask entry keeps. -/
theorem keep_apply (o : ℕ) (ho3 : o < 3)
    (ho : (⟨0, ![]⟩ : Shape).BroadcastsInDim ⟨2, ![M, 1]⟩ (![] : Fin 0 → Fin 2))
    (hk : (⟨2, ![M, 1]⟩ : Shape).BroadcastsInDim ⟨2, ![M, N]⟩ ![0, 1])
    (hs : (⟨2, ![M, 3]⟩ : Shape).Slices ![0, o] ⟨2, ![M, 1]⟩) (mask : IVec ⟨2, ![M, 3]⟩ 32) (r : Fin M) (j : Fin N) :
    broadcastInDim ⟨2, ![M, N]⟩ ![0, 1] hk (subf (broadcastInDim ⟨2, ![M, 1]⟩ ![] ho (constant (F := Ideal) ⟨0, ![]⟩ .f32 0x3F800000#32))
        (extractStridedSlice ⟨2, ![M, 1]⟩ ![0, o] (sitofp (F := Ideal) .f32 mask) hs)) (ix2 r j)
      = keep (FloatOps.sitofp (F := Ideal) .f32 (mask (ix2 r ⟨o, ho3⟩))) := by
  rw [Cert.Layout.cols_of_col_apply, subf_apply, Cert.Layout.splat_apply,
    extractStridedSlice_apply ![0, o] _ hs (ix2 r 0) (ix2 r ⟨o, ho3⟩) (fun a => by
      match a with
      | ⟨0, _⟩ => show r.val = 0 + r.val; omega
      | ⟨1, _⟩ => show o = o + 0; rfl)]
  rfl

end Layers

/-- A dense layer depends on its input row entry by entry. -/
theorem layer_congr {n h : ℕ} {u v : Fin n → EReal} (huv : ∀ d, u d = v d) (W : Fin n → Fin h → EReal)
    (b : Fin h → EReal) (j : Fin h) : layer u W b j = layer v W b j := by
  rw [show u = v from funext huv]

/-- The host's composed term for one of the two networks, read at `(r, j)`, is the specification there. `o` is the
    mask column the network's keep factor reads. -/
theorem host_recon (o : ℕ) (ho3 : o < 3)
    (hc1 : Shape.Concatenates [(⟨2, ![R, 256]⟩ : Shape), ⟨2, ![R, 256]⟩, ⟨2, ![R, 128]⟩] ⟨2, ![R, 640]⟩ 1)
    (hc2 : Shape.Concatenates [(⟨2, ![R, 512]⟩ : Shape), ⟨2, ![R, 768]⟩, ⟨2, ![R, 640]⟩] ⟨2, ![R, 1920]⟩ 1)
    (hv : (⟨1, ![512]⟩ : Shape).BroadcastsInDim ⟨2, ![1, 512]⟩ ![1])
    (hr : (⟨2, ![1, 512]⟩ : Shape).BroadcastsInDim ⟨2, ![R, 512]⟩ ![0, 1])
    (hz : (⟨0, ![]⟩ : Shape).BroadcastsInDim ⟨2, ![R, 512]⟩ (![] : Fin 0 → Fin 2))
    (ho : (⟨0, ![]⟩ : Shape).BroadcastsInDim ⟨2, ![R, 1]⟩ (![] : Fin 0 → Fin 2))
    (hk : (⟨2, ![R, 1]⟩ : Shape).BroadcastsInDim ⟨2, ![R, 512]⟩ ![0, 1])
    (hs : (⟨2, ![R, 3]⟩ : Shape).Slices ![0, o] ⟨2, ![R, 1]⟩)
    (d1 : DotDims ⟨2, ![R, 1920]⟩ ⟨2, ![1920, 512]⟩ ⟨2, ![R, 512]⟩) (hd1 : d1 = DotDims.plain R 1920 512)
    (d2 : DotDims ⟨2, ![R, 512]⟩ ⟨2, ![512, 512]⟩ ⟨2, ![R, 512]⟩) (hd2 : d2 = DotDims.plain R 512 512)
    (x : FVec Ideal ⟨2, ![R, 512]⟩ .f32) (t : FVec Ideal ⟨2, ![R, 768]⟩ .f32) (k c : FVec Ideal ⟨2, ![R, 256]⟩ .f32)
    (s : FVec Ideal ⟨2, ![R, 128]⟩ .f32) (mask : IVec ⟨2, ![R, 3]⟩ 32)
    (W1 : FVec Ideal ⟨2, ![1920, 512]⟩ .f32) (b1 : FVec Ideal ⟨1, ![512]⟩ .f32)
    (W2 : FVec Ideal ⟨2, ![512, 512]⟩ .f32) (b2 : FVec Ideal ⟨1, ![512]⟩ .f32)
    (W3 : FVec Ideal ⟨2, ![512, 512]⟩ .f32) (b3 : FVec Ideal ⟨1, ![512]⟩ .f32) (r : Fin R) (j : Fin 512) :
    mulf (addf (Host.dotGeneral d2 none (maximumf (addf (Host.dotGeneral d2 none (maximumf (addf (Host.dotGeneral d1 none
        (concatenate ⟨2, ![R, 1920]⟩ 1 [⟨⟨2, ![R, 512]⟩, x⟩, ⟨⟨2, ![R, 768]⟩, t⟩,
          ⟨⟨2, ![R, 640]⟩, concatenate ⟨2, ![R, 640]⟩ 1 [⟨⟨2, ![R, 256]⟩, k⟩, ⟨⟨2, ![R, 256]⟩, c⟩, ⟨⟨2, ![R, 128]⟩, s⟩] hc1⟩] hc2) W1)
        (broadcastInDim ⟨2, ![R, 512]⟩ ![0, 1] hr (broadcastInDim ⟨2, ![1, 512]⟩ ![1] hv b1)))
        (broadcastInDim ⟨2, ![R, 512]⟩ ![] hz (constant (F := Ideal) ⟨0, ![]⟩ .f32 0x00000000#32))) W2)
        (broadcastInDim ⟨2, ![R, 512]⟩ ![0, 1] hr (broadcastInDim ⟨2, ![1, 512]⟩ ![1] hv b2)))
        (broadcastInDim ⟨2, ![R, 512]⟩ ![] hz (constant (F := Ideal) ⟨0, ![]⟩ .f32 0x00000000#32))) W3)
        (broadcastInDim ⟨2, ![R, 512]⟩ ![0, 1] hr (broadcastInDim ⟨2, ![1, 512]⟩ ![1] hv b3)))
      (broadcastInDim ⟨2, ![R, 512]⟩ ![0, 1] hk (subf (broadcastInDim ⟨2, ![R, 1]⟩ ![] ho (constant (F := Ideal) ⟨0, ![]⟩ .f32 0x3F800000#32))
        (extractStridedSlice ⟨2, ![R, 1]⟩ ![0, o] (sitofp (F := Ideal) .f32 mask) hs))) (ix2 r j)
      = recon x t k c s (fun r' => FloatOps.sitofp (F := Ideal) .f32 (mask (ix2 r' ⟨o, ho3⟩))) W1 b1 W2 b2 W3 b3 (ix2 r j) := by
  subst hd1 hd2
  rw [mulf_apply, keep_apply o ho3 ho hk hs mask r j, dense_apply]
  -- the first contraction, over the joined row, piece by piece
  have first : ∀ j' : Fin 512,
      layer (fun d => joined hc1 hc2 x t k c s (ix2 r d)) (fun d j'' => W1 (ix2 d j'')) (fun j'' => b1 (ix1 j'')) j'
        = seg5 (fun d => x (ix2 r d)) (fun d => t (ix2 r d)) (fun d => k (ix2 r d)) (fun d => c (ix2 r d))
            (fun d => s (ix2 r d))
            (rowsFrom W1 0 (m := 512) (by norm_num)) (rowsFrom W1 512 (m := 768) (by norm_num))
            (rowsFrom W1 1280 (m := 256) (by norm_num)) (rowsFrom W1 1536 (m := 256) (by norm_num))
            (rowsFrom W1 1792 (m := 128) (by norm_num)) j' + b1 (ix1 j') := by
    intro j'
    unfold layer
    rw [joined_eq_seg5 (n0 := 512) (n1 := 768) (n2 := 256) (n3 := 256) (n4 := 128) rfl
      (fun d => joined hc1 hc2 x t k c s (ix2 r d)) (fun d j'' => W1 (ix2 d j''))
      (fun d => x (ix2 r d)) (fun d => t (ix2 r d)) (fun d => k (ix2 r d)) (fun d => c (ix2 r d)) (fun d => s (ix2 r d))
      (joined_at_x hc1 hc2 x t k c s r) (joined_at_t hc1 hc2 x t k c s r) (joined_at_k hc1 hc2 x t k c s r)
      (joined_at_c hc1 hc2 x t k c s r) (joined_at_s hc1 hc2 x t k c s r) j']
    rfl
  -- the specification at (r, j), its layers laid open
  show _ = tail _ _ _ _ _ _ j * keep _
  unfold tail
  refine congrArg (· * _) (layer_congr (fun k2 => ?_) _ _ j)
  rw [relu_apply, dense_apply]
  refine congrArg relu (layer_congr (fun k1 => ?_) _ _ k2)
  rw [relu_apply, dense_apply]
  exact congrArg relu (first k1)

end Cert.HostSide

end
-- ==== Proof.lean ====
/-
  The certificate of a fused two-network kernel against its jnp reference, over the extended reals.

  BOTH PROGRAMS compute two arrays `[32768, 512]`. At row `r` and feature `c` each is a three-layer network

      ( relu ( relu ( X r · W1 + b1 ) · W2 + b2 ) · W3 + b3 ) c  ·  (1 − mask r)

  of row `r` of five data arrays laid side by side (512 | 768 | 256 | 256 | 128 = 1920 features; the first piece is
  `visual` for the first result and `audio` for the second, each with its own weights and its own mask column), `relu`
  the larger of a value and the zero word, `mask r` an integer entry read as a real. THE REFERENCE joins the five arrays
  and contracts the 1920 joined features with `W1` in one product. THE KERNEL never joins them: for a block of 512 rows
  it adds five partial products, one per piece against the matching rows of `W1`, left to right; it narrows its
  operands to a shorter float format first, which over the extended reals is the identity, and accumulates each
  product into zero, which adds nothing. So the one thing to prove is that a contraction over laid-together pieces is
  the sum of the pieces' contractions — a finite sum taken piece by piece, which uses associativity of addition only
  (`Cert.SumSplit.sum_five`, `Cert.MaskedMlp.joined_eq_seg5`). No entry is asked to be finite: the precondition is
  never opened.

  THE ROAD. `Cert.MaskedMlp.recon` states the result as one function of the argument arrays, row by row.
  `Cert.HostSide.host_recon`: the reference's composed term, read at an entry, is `recon` there.
  `Cert.BlockSide.first_block` / `second_block`: the kernel body's stored blocks, read at an entry, are the same
  row-wise function of the loaded blocks. `Cert.KernelRun`: row `p` of grid point `t`'s blocks is row `512 t + p` of the
  arrays, so a point writes back block `t` of `recon` of the arguments; the 64 blocks tile the 32768 rows; hence after
  the kernel's run both result arrays are `recon` of the arguments (`Cert.KernelRun.run`). The three frames are the
  runs with the results dropped; the idealization rewrote no operation, so `preserves` has nothing to state.
-/
import proofs.«132250_j78039555768356_2_alg».proof.Defs
import proofs.«132250_j78039555768356_2_alg».proof.Proof.Gen.Kernel
import proofs.«132250_j78039555768356_2_alg».proof.Proof.Gen.Kernel.Skeleton
import proofs.«132250_j78039555768356_2_alg».proof.Proof.Gen.Kernel.Launch
import proofs.«132250_j78039555768356_2_alg».proof.Proof.Gen.Kernel.Points
import proofs.«132250_j78039555768356_2_alg».proof.Proof.Gen.Kernel.Frame
import proofs.«132250_j78039555768356_2_alg».proof.Proof.Gen.KernelIdeal
import proofs.«132250_j78039555768356_2_alg».proof.Proof.Gen.KernelIdeal.Skeleton
import proofs.«132250_j78039555768356_2_alg».proof.Proof.Gen.KernelIdeal.Launch
import proofs.«132250_j78039555768356_2_alg».proof.Proof.Gen.KernelIdeal.Points
import proofs.«132250_j78039555768356_2_alg».proof.Proof.Gen.KernelIdeal.Frame
import proofs.«132250_j78039555768356_2_alg».proof.Proof.Gen.ReferenceIdeal
import proofs.«132250_j78039555768356_2_alg».proof.Proof.Gen.Pre_finite_inputs
import proofs.«132250_j78039555768356_2_alg».proof.Proof.Gen.ReferenceIdeal.Run
import proofs.«132250_j78039555768356_2_alg».proof.Proof.KernelRun
import proofs.«132250_j78039555768356_2_alg».proof.Proof.HostSide
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel terminates without a fault and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation: nothing is stated. -/
theorem preserves : Cert.preserves_Kernel_KernelIdeal := trivial

/-- From memories that agree on the arguments both programs end with the two arrays `recon` of the arguments: the
    kernel's run block by block (`Cert.KernelRun.run`), the reference's composed term entry by entry
    (`Cert.HostSide.host_recon`, once per result, with mask column 0 and 1). -/
theorem algebraic : Cert.algebraic_KernelIdeal_ReferenceIdeal := by
  intro m ρ m' ρ' _ hagree
  refine ⟨fun c => Cert.KernelRun.out0 m c, fun c => Cert.KernelRun.out1 m c, Cert.KernelRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18⟩ := hagree c
    rw [a1, a2, a3, a4, a5, a6, a7, a8, a9, a10, a11, a12]
    funext i
    obtain ⟨r, j, rfl⟩ : ∃ (r : Fin 32768) (j : Fin 512), i = ix2 r j := ⟨i 0, i 1, eq_ix2 i⟩
    exact Cert.HostSide.host_recon (R := 32768) 0 (by norm_num) _ _ _ _ _ _ _ _
      Cert.ReferenceIdeal.dot_S32768x1920_S1920x512_S32768x512_1_0_0_1_n_n rfl
      Cert.ReferenceIdeal.dot_S32768x512_S512x512_S32768x512_1_0_0_1_n_n rfl _ _ _ _ _ _ _ _ _ _ _ _ r j
  · obtain ⟨a0, a1, a2, a3, a4, a5, a6, a7, a8, a9, a10, a11, a12, a13, a14, a15, a16, a17, a18⟩ := hagree c
    rw [a0, a2, a3, a4, a5, a6, a13, a14, a15, a16, a17, a18]
    funext i
    obtain ⟨r, j, rfl⟩ : ∃ (r : Fin 32768) (j : Fin 512), i = ix2 r j := ⟨i 0, i 1, eq_ix2 i⟩
    exact Cert.HostSide.host_recon (R := 32768) 1 (by norm_num) _ _ _ _ _ _ _ _
      Cert.ReferenceIdeal.dot_S32768x1920_S1920x512_S32768x512_1_0_0_1_n_n rfl
      Cert.ReferenceIdeal.dot_S32768x512_S512x512_S32768x512_1_0_0_1_n_n rfl _ _ _ _ _ _ _ _ _ _ _ _ r j

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
